-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S100000 : Shape := ⟨1, ![100000]⟩
abbrev S64x4 : Shape := ⟨2, ![64, 4]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S3 : Shape := ⟨1, ![3]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S3x64 .f32) (main_arg10 : FVec F S3 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S3x64 .f32) (main_arg7 : FVec F S64x64 .f32) (main_arg8 : FVec F S64 .f32) (main_arg9 : FVec F S3x64 .f32) (main_arg10 : FVec F S3 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x4 .f32) (main_arg1 : IVec S2x3200000 32) (main_arg2 : IVec S100000 32) (main_arg3 : FVec F S64x4 .f32) (main_arg4 : FVec F S64 .f32) (main_arg5 : FVec F S3x64x64 .f32) (main_arg6 : FVec F S3x64 .f32) (main_arg7 : FVec F S64x64 .f32) (main_arg8 : FVec F S64 .f32) (main_arg9 : FVec F S3x64 .f32) (main_arg10 : FVec F S3 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S64x4 .f32 := Host.absf main_arg3
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_v13 main_v16
-- ==== Kernel.lean ====
abbrev S100000x4 : Shape := ⟨2, ![100000, 4]⟩
abbrev S2x3200000 : Shape := ⟨2, ![2, 3200000]⟩
abbrev S100000 : Shape := ⟨1, ![100000]⟩
abbrev S64x4 : Shape := ⟨2, ![64, 4]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S3 : Shape := ⟨1, ![3]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x64x64 : Shape := ⟨3, ![1, 64, 64]⟩
abbrev S1x64 : Shape := ⟨2, ![1, 64]⟩
abbrev S100000x64 : Shape := ⟨2, ![100000, 64]⟩
abbrev S2000x4 : Shape := ⟨2, ![2000, 4]⟩
abbrev S2000x1 : Shape := ⟨2, ![2000, 1]⟩
abbrev S2000x64 : Shape := ⟨2, ![2000, 64]⟩
abbrev S4x64 : Shape := ⟨2, ![4, 64]⟩
abbrev S3300000x64 : Shape := ⟨2, ![3300000, 64]⟩
abbrev S2000 : Shape := ⟨1, ![2000]⟩
abbrev S1x3 : Shape := ⟨2, ![1, 3]⟩
abbrev S2000x3 : Shape := ⟨2, ![2000, 3]⟩
abbrev S64x3 : Shape := ⟨2, ![64, 3]⟩

abbrev nBuf : Space → Nat
  | .hbm => 106
  | .vmem => 39
  | .smem => 0
  | _ => 0

abbrev bufTy : (tb : Table) → Fin (tcTables nBuf tb) → BufTy
  | .hbm, ⟨0, _⟩ => ⟨S100000x4, .f32⟩
  | .hbm, ⟨1, _⟩ => ⟨S2x3200000, .i32⟩
  | .hbm, ⟨2, _⟩ => ⟨S100000, .i32⟩
  | .hbm, ⟨3, _⟩ => ⟨S64x4, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x64, .f32⟩
  | .hbm, ⟨8, _⟩ => ⟨S64, .f32⟩
  | .hbm, ⟨9, _⟩ => ⟨S3x64, .f32⟩
  | .hbm, ⟨10, _⟩ => ⟨S3, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x64x64, .f32⟩
  | .hbm, ⟨34, _⟩ => ⟨S64x64, .f32⟩
  | .hbm, ⟨35, _⟩ => ⟨S1x64, .f32⟩
  | .hbm, ⟨36, _⟩ => ⟨S100000x64, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000x64, .f32⟩
  | .hbm, ⟨46, _⟩ => ⟨S_, .f32⟩
  | .hbm, ⟨47, _⟩ => ⟨S100000x64, .f32⟩
  | .hbm, ⟨48, _⟩ => ⟨S3300000x1, .i32⟩
  | .hbm, ⟨49, _⟩ => ⟨S100000x64, .f32⟩
  | .hbm, ⟨50, _⟩ => ⟨S1x64, .f32⟩
  | .hbm, ⟨51, _⟩ => ⟨S64, .f32⟩
  | .hbm, ⟨52, _⟩ => ⟨S1x64x64, .f32⟩
  | .hbm, ⟨53, _⟩ => ⟨S64x64, .f32⟩
  | .hbm, ⟨54, _⟩ => ⟨S1x64, .f32⟩
  | .hbm, ⟨55, _⟩ => ⟨S100000x64, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x64, .f32⟩
  | .hbm, ⟨65, _⟩ => ⟨S_, .f32⟩
  | .hbm, ⟨66, _⟩ => ⟨S100000x64, .f32⟩
  | .hbm, ⟨67, _⟩ => ⟨S3300000x1, .i32⟩
  | .hbm, ⟨68, _⟩ => ⟨S100000x64, .f32⟩
  | .hbm, ⟨69, _⟩ => ⟨S1x64, .f32⟩
  | .hbm, ⟨70, _⟩ => ⟨S64, .f32⟩
  | .hbm, ⟨71, _⟩ => ⟨S1x64x64, .f32⟩
  | .hbm, ⟨72, _⟩ => ⟨S64x64, .f32⟩
  | .hbm, ⟨73, _⟩ => ⟨S1x64, .f32⟩
  | .hbm, ⟨74, _⟩ => ⟨S100000x64, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S64, .f32⟩
  | .hbm, ⟨90, _⟩ => ⟨S1x64, .f32⟩
  | .hbm, ⟨91, _⟩ => ⟨S100000x64, .f32⟩
  | .hbm, ⟨92, _⟩ => ⟨S_, .f32⟩
  | .hbm, ⟨93, _⟩ => ⟨S2000x64, .f32⟩
  | .hbm, ⟨94, _⟩ => ⟨S100000x1, .i32⟩
  | .hbm, ⟨95, _⟩ => ⟨S2000x64, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S2000, .f32⟩
  | .hbm, ⟨100, _⟩ => ⟨S100000x1, .i32⟩
  | .hbm, ⟨101, _⟩ => ⟨S2000, .f32⟩
  | .hbm, ⟨102, _⟩ => ⟨S2000x1, .f32⟩
  | .hbm, ⟨103, _⟩ => ⟨S1x64, .f32⟩
  | .hbm, ⟨104, _⟩ => ⟨S1x3, .f32⟩
  | .hbm, ⟨105, _⟩ => ⟨S2000x3, .f32⟩
  | .local _ .vmem, ⟨0, _⟩ => ⟨S2000x4, .f32⟩
  | .local _ .vmem, ⟨1, _⟩ => ⟨S2000x4, .f32⟩
  | .local _ .vmem, ⟨2, _⟩ => ⟨S64x4, .f32⟩
  | .local _ .vmem, ⟨3, _⟩ => ⟨S1x64, .f32⟩
  | .local _ .vmem, ⟨4, _⟩ => ⟨S64x64, .f32⟩
  | .local _ .vmem, ⟨5, _⟩ => ⟨S2000x1, .f32⟩
  | .local _ .vmem, ⟨6, _⟩ => ⟨S2000x1, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x1, .f32⟩
  | .local _ .vmem, ⟨12, _⟩ => ⟨S2000x1, .f32⟩
  | .local _ .vmem, ⟨13, _⟩ => ⟨S1x64, .f32⟩
  | .local _ .vmem, ⟨14, _⟩ => ⟨S64x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x1, .f32⟩
  | .local _ .vmem, ⟨20, _⟩ => ⟨S2000x1, .f32⟩
  | .local _ .vmem, ⟨21, _⟩ => ⟨S1x64, .f32⟩
  | .local _ .vmem, ⟨22, _⟩ => ⟨S64x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x1, .f32⟩
  | .local _ .vmem, ⟨28, _⟩ => ⟨S2000x1, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x1, .f32⟩
  | .local _ .vmem, ⟨34, _⟩ => ⟨S64x64, .f32⟩
  | .local _ .vmem, ⟨35, _⟩ => ⟨S1x64, .f32⟩
  | .local _ .vmem, ⟨36, _⟩ => ⟨S3x64, .f32⟩
  | .local _ .vmem, ⟨37, _⟩ => ⟨S1x3, .f32⟩
  | .local _ .vmem, ⟨38, _⟩ => ⟨S2000x3, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2000x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S2000x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S3x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S2000x3 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  slices_S3x64x64_S1x64x64_0_0_0 : S3x64x64.Slices ![0, 0, 0] S1x64x64
  shapeCasts_S1x64x64_S64x64 : S1x64x64.ShapeCasts S64x64
  shapeCasts_S64_S1x64 : S64.ShapeCasts S1x64
  inb_S2000x4_S2000x4_0_0 : ∀ a, (![0, 0] : Fin 2 → Nat) a + S2000x4.size a ≤ S2000x4.size a
  h_S2000x4 : 0 < S2000x4.numel
  bitsLt_bf16_f32 : FTy.bits .bf16 < FTy.bits .f32
  inb_S64x4_S64x4_0_0 : ∀ a, (![0, 0] : Fin 2 → Nat) a + S64x4.size a ≤ S64x4.size a
  h_S64x4 : 0 < S64x4.numel
  transposes_S64x4_p1_0_S4x64 : S64x4.Transposes [1, 0] S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  shapeCasts_S2000x64_S2000x64 : S2000x64.ShapeCasts S2000x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S2000x64 : S_.BroadcastsInDim S2000x64 (![] : Fin 0 → Fin S2000x64.rank)
  bcast_S100000_S100000x1_0 : S100000.BroadcastsInDim S100000x1 (![0] : Fin 1 → Fin S100000x1.rank)
  bcast_S_S2000 : S_.BroadcastsInDim S2000 (![] : Fin 0 → Fin S2000.rank)
  shapeCasts_S2000_S2000x1 : S2000.ShapeCasts S2000x1
  shapeCasts_S3_S1x3 : S3.ShapeCasts S1x3
  inb_S3x64_S3x64_0_0 : ∀ a, (![0, 0] : Fin 2 → Nat) a + S3x64.size a ≤ S3x64.size a
  h_S3x64 : 0 < S3x64.numel
  transposes_S3x64_p1_0_S64x3 : S3x64.Transposes [1, 0] S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  scatter_S100000_S3300000x1_S3300000_n_0_0_1_wf : ScatterDims.WF S100000 S3300000x1 S3300000 [] [0] [0] 1
  dot_S2000x4_S4x64_S2000x64_1_0_0_1_n_n_wf : DotDims.WF S2000x4 S4x64 S2000x64 [1] [0] [0] [1] [] []
  dot_S2000x64_S64x64_S2000x64_1_0_0_1_n_n_wf : DotDims.WF S2000x64 S64x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1
  dot_S2000x64_S64x3_S2000x3_1_0_0_1_n_n_wf : DotDims.WF S2000x64 S64x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S100000x4.size a
  hwx0_0 : ∀ i : grid0.Coords, EltTy.bits .f32 = 32 ∨ (Rect.block (s := S100000x4) S2000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S2000x64.size a
  hwx4_0 : ∀ i : grid4.Coords, EltTy.bits .f32 = 32 ∨ (Rect.block (s := S2000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S2000x1.size a
  hwx4_1 : ∀ i : grid4.Coords, EltTy.bits .f32 = 32 ∨ (Rect.block (s := S2000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3x64.size a ≤ S3x64.size a
  hwx4_4 : ∀ i : grid4.Coords, EltTy.bits .f32 = 32 ∨ (Rect.block (s := S3x64) S3x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x3.size a ≤ S1x3.size a
  hwx4_5 : ∀ i : grid4.Coords, EltTy.bits .f32 = 32 ∨ (Rect.block (s := S1x3) S1x3.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S2000x3.size a ≤ S2000x3.size a
  hwx4_6 : ∀ i : grid4.Coords, EltTy.bits .f32 = 32 ∨ (Rect.block (s := S2000x3) S2000x3.size (cc4_transform_6 i) (hinb4_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S2000x4_S4x64_S2000x64_1_0_0_1_n_n : DotDims S2000x4 S4x64 S2000x64 where
  lhsContracting := [1]
  rhsContracting := [0]
  lhsNonContracting := [0]
  rhsNonContracting := [1]
  lhsBatch := []
  rhsBatch := []
  wf := dot_S2000x4_S4x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x64_S64x3_S2000x3_1_0_0_1_n_n : DotDims S2000x64 S64x3 S2000x3 where
  lhsContracting := [1]
  rhsContracting := [0]
  lhsNonContracting := [0]
  rhsNonContracting := [1]
  lhsBatch := []
  rhsBatch := []
  wf := dot_S2000x64_S64x3_S2000x3_1_0_0_1_n_n_wf

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S2000x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v73) S2000x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S3x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v75) S1x3.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v76) S2000x3.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S100000 : Shape := ⟨1, ![100000]⟩
abbrev S64x4 : Shape := ⟨2, ![64, 4]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S3 : Shape := ⟨1, ![3]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S4x64 : Shape := ⟨2, ![4, 64]⟩
abbrev S100000x64 : Shape := ⟨2, ![100000, 64]⟩
abbrev S1x64 : Shape := ⟨2, ![1, 64]⟩
abbrev S1x64x64 : Shape := ⟨3, ![1, 64, 64]⟩
abbrev S3300000x64 : Shape := ⟨2, ![3300000, 64]⟩
abbrev S2000x64 : Shape := ⟨2, ![2000, 64]⟩
abbrev S100000x1 : Shape := ⟨2, ![100000, 1]⟩
abbrev S2000 : Shape := ⟨1, ![2000]⟩
abbrev S2000x1 : Shape := ⟨2, ![2000, 1]⟩
abbrev S64x3 : Shape := ⟨2, ![64, 3]⟩
abbrev S2000x3 : Shape := ⟨2, ![2000, 3]⟩
abbrev S1x3 : Shape := ⟨2, ![1, 3]⟩

abbrev nBuf : Space → Nat
  | .hbm => 169
  | .vmem => 0
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S64x4, .f32⟩
  | 4 => ⟨S64, .f32⟩
  | 5 => ⟨S3x64x64, .f32⟩
  | 6 => ⟨S3x64, .f32⟩
  | 7 => ⟨S64x64, .f32⟩
  | 8 => ⟨S64, .f32⟩
  | 9 => ⟨S3x64, .f32⟩
  | 10 => ⟨S3, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S4x64, .f32⟩
  | 52 => ⟨S100000x64, .f32⟩
  | 53 => ⟨S1x64, .f32⟩
  | 54 => ⟨S100000x64, .f32⟩
  | 55 => ⟨S100000x64, .f32⟩
  | 56 => ⟨S1x64x64, .f32⟩
  | 57 => ⟨S64x64, .f32⟩
  | 58 => ⟨S64x64, .f32⟩
  | 59 => ⟨S100000x64, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000x64, .f32⟩
  | 69 => ⟨S3300000x1, .f32⟩
  | 70 => ⟨S3300000x64, .f32⟩
  | 71 => ⟨S3300000x64, .f32⟩
  | 72 => ⟨S_, .f32⟩
  | 73 => ⟨S100000x64, .f32⟩
  | 74 => ⟨S3300000x1, .i32⟩
  | 75 => ⟨S100000x64, .f32⟩
  | 76 => ⟨S1x64, .f32⟩
  | 77 => ⟨S64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S1x64x64, .f32⟩
  | 85 => ⟨S64x64, .f32⟩
  | 86 => ⟨S64x64, .f32⟩
  | 87 => ⟨S100000x64, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000x64, .f32⟩
  | 97 => ⟨S3300000x1, .f32⟩
  | 98 => ⟨S3300000x64, .f32⟩
  | 99 => ⟨S3300000x64, .f32⟩
  | 100 => ⟨S_, .f32⟩
  | 101 => ⟨S100000x64, .f32⟩
  | 102 => ⟨S3300000x1, .i32⟩
  | 103 => ⟨S100000x64, .f32⟩
  | 104 => ⟨S1x64, .f32⟩
  | 105 => ⟨S64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S1x64x64, .f32⟩
  | 113 => ⟨S64x64, .f32⟩
  | 114 => ⟨S64x64, .f32⟩
  | 115 => ⟨S100000x64, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x64, .f32⟩
  | 125 => ⟨S3300000x1, .f32⟩
  | 126 => ⟨S3300000x64, .f32⟩
  | 127 => ⟨S3300000x64, .f32⟩
  | _ => ⟨S100000x4, .f32⟩

abbrev hbmTy0_1 (i : Nat) : BufTy := match i % 128 with
  | 0 => ⟨S_, .f32⟩
  | 1 => ⟨S100000x64, .f32⟩
  | 2 => ⟨S3300000x1, .i32⟩
  | 3 => ⟨S100000x64, .f32⟩
  | 4 => ⟨S1x64, .f32⟩
  | 5 => ⟨S64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S_, .f32⟩
  | 13 => ⟨S2000x64, .f32⟩
  | 14 => ⟨S100000x1, .i32⟩
  | 15 => ⟨S2000x64, .f32⟩
  | 16 => ⟨S_, .f32⟩
  | 17 => ⟨S100000, .f32⟩
  | 18 => ⟨S_, .f32⟩
  | 19 => ⟨S2000, .f32⟩
  | 20 => ⟨S100000x1, .i32⟩
  | 21 => ⟨S2000, .f32⟩
  | 22 => ⟨S_, .f32⟩
  | 23 => ⟨S2000, .f32⟩
  | 24 => ⟨S2000, .f32⟩
  | 25 => ⟨S2000x1, .f32⟩
  | 26 => ⟨S2000x64, .f32⟩
  | 27 => ⟨S2000x64, .f32⟩
  | 28 => ⟨S64x64, .f32⟩
  | 29 => ⟨S2000x64, .f32⟩
  | 30 => ⟨S1x64, .f32⟩
  | 31 => ⟨S2000x64, .f32⟩
  | 32 => ⟨S2000x64, .f32⟩
  | 33 => ⟨S_, .f32⟩
  | 34 => ⟨S2000x64, .f32⟩
  | 35 => ⟨S2000x64, .f32⟩
  | 36 => ⟨S64x3, .f32⟩
  | 37 => ⟨S2000x3, .f32⟩
  | 38 => ⟨S1x3, .f32⟩
  | 39 => ⟨S2000x3, .f32⟩
  | 40 => ⟨S2000x3, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_9 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_cst : Ref sig .tc := ⟨.hbm, 109, rfl⟩
abbrev main_call2_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_12 : Ref sig .tc := ⟨.hbm, 116, rfl⟩
abbrev main_v85 : Ref sig .tc := ⟨.hbm, 117, rfl⟩
abbrev main_v86 : Ref sig .tc := ⟨.hbm, 118, rfl⟩
abbrev main_c_13 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_14 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call3_cst : Ref sig .tc := ⟨.hbm, 137, rfl⟩
abbrev main_call3_v0 : Ref sig .tc := ⟨.hbm, 138, rfl⟩
abbrev main_v103 : Ref sig .tc := ⟨.hbm, 139, rfl⟩
abbrev main_cst_15 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_16 : Ref sig .tc := ⟨.hbm, 144, rfl⟩
abbrev main_v107 : Ref sig .tc := ⟨.hbm, 145, rfl⟩
abbrev main_cst_17 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_18 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_call4_cst : Ref sig .tc := ⟨.hbm, 161, rfl⟩
abbrev main_call4_v0 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S64x4_S4x64_1_0 : S64x4.Transposes [1, 0] S4x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S2000x64 : S_.BroadcastsInDim S2000x64 (![] : Fin 0 → Fin S2000x64.rank)
  bcast_S100000_S100000x1_0 : S100000.BroadcastsInDim S100000x1 (![0] : Fin 1 → Fin S100000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  bcast_S1x64_S2000x64_0_1 : S1x64.BroadcastsInDim S2000x64 (![0, 1] : Fin 2 → Fin S2000x64.rank)
  transposes_S3x64_S64x3_1_0 : S3x64.Transposes [1, 0] S64x3
  bcast_S3_S1x3_1 : S3.BroadcastsInDim S1x3 (![1] : Fin 1 → Fin S1x3.rank)
  bcast_S1x3_S2000x3_0_1 : S1x3.BroadcastsInDim S2000x3 (![0, 1] : Fin 2 → Fin S2000x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x4_S4x64_S100000x64_1_0_0_1_n_n_wf : DotDims.WF S100000x4 S4x64 S100000x64 [1] [0] [0] [1] [] []
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1
  dot_S2000x64_S64x64_S2000x64_1_0_0_1_n_n_wf : DotDims.WF S2000x64 S64x64 S2000x64 [1] [0] [0] [1] [] []
  dot_S2000x64_S64x3_S2000x3_1_0_0_1_n_n_wf : DotDims.WF S2000x64 S64x3 S2000x3 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x3_S2000x3_1_0_0_1_n_n : DotDims S2000x64 S64x3 S2000x3 where
  lhsContracting := [1]
  rhsContracting := [0]
  lhsNonContracting := [0]
  rhsNonContracting := [1]
  lhsBatch := []
  rhsBatch := []
  wf := dot_S2000x64_S64x3_S2000x3_1_0_0_1_n_n_wf

class Facts : Prop extends Facts₀ where

variable [Facts]
-- ==== Proof.KRun.lean ====
/-
  The kernel program's run, with its result named.

  Every weakly fair execution of the program's five kernel regions and the host operations between them terminates
  without a fault; the final state holds, at the result buffer, the contents the last region's write-backs leave
  (the fold of the boundary contents through the program, `Gen.W12`), and the argument arrays as launched. The
  frame claim's run is the same run read at the arguments only; here the result buffer is read as well.
-/
import proofs.«113083_j47880295415877_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KRun

end
-- ==== Proof.Spec.lean ====
/-
  The graph network's arithmetic, coordinate by coordinate, on the extended reals.

  Matrices are read as functions of their two coordinates (`at2`), vectors of their one (`vec`); a row matrix
  `[1, b]` by its column (`row`), a column matrix `[a, 1]` by its row (`col`). Every function below depends on
  the row `n` of its row-indexed operands only through that row, so the same formula describes a block of rows and
  the whole array.

  * `embC`  : the node embedding  `x · ewᵀ + eb`.
  * `linC`  : a product with a transposed weight, `h · wᵀ`.
  * `actC`  : the activation with the degree factor applied to the aggregate first, `max (d·a + b) 0`.
  * `actR`  : the activation of an aggregate that already carries its factor, `max (a + b) 0`.
  * `G0C`   : embedding, first weight, then the degree factor: `((x·ewᵀ + eb)·w0ᵀ)·d`.
  * `G1C`   : activation, next weight, then the degree factor: `(actC a d b · wᵀ)·d`.
  * `mlpC`  : the pooled mean `g / max c 1`, a hidden layer with `max · 0`, and the output layer.
-/
import Idealize.ShloMosaic.PureOps.Ideal
import Idealize.ShloMosaic.Lib.ValueIdx

noncomputable section

namespace Cert.Spec

open Idealize.ShloMosaic Idealize.ShloMosaic.ValueIdx

/-- A matrix as a function of its two coordinates. -/
def at2 {a b : ℕ} (v : (⟨2, ![a, b]⟩ : Shape).Idx → EReal) (p : Fin a) (q : Fin b) : EReal := v (ix2 p q)
/-- The matrix of a function of two coordinates. -/
def mat2 {a b : ℕ} (f : Fin a → Fin b → EReal) : (⟨2, ![a, b]⟩ : Shape).Idx → EReal := fun i => f (i 0) (i 1)
/-- A vector as a function of its coordinate. -/
def vec {a : ℕ} (v : (⟨1, ![a]⟩ : Shape).Idx → EReal) (p : Fin a) : EReal := v (ix1 p)
/-- A one-row matrix as a function of the column. -/
def row {b : ℕ} (v : (⟨2, ![1, b]⟩ : Shape).Idx → EReal) (q : Fin b) : EReal := v (ix2 (0 : Fin 1) q)
/-- A one-column matrix as a function of the row. -/
def col {a : ℕ} (v : (⟨2, ![a, 1]⟩ : Shape).Idx → EReal) (p : Fin a) : EReal := v (ix2 p (0 : Fin 1))

theorem mat2_apply {a b : ℕ} (f : Fin a → Fin b → EReal) (p : Fin a) (q : Fin b) : mat2 f (ix2 p q) = f p q := rfl
theorem at2_mat2 {a b : ℕ} (f : Fin a → Fin b → EReal) : at2 (mat2 f) = f := rfl
theorem mat2_at2 {a b : ℕ} (v : (⟨2, ![a, b]⟩ : Shape).Idx → EReal) : mat2 (at2 v) = v :=
  funext fun i => congrArg v (eq_ix2 i).symm

/-- The float zero and one, as the words the programs spell them with. -/
abbrev zeroW : EReal := Ideal.ofBits .f32 0x00000000#32
abbrev oneW : EReal := Ideal.ofBits .f32 0x3F800000#32

/-- The node embedding: `x · ewᵀ + eb`. -/
def embC {M : ℕ} (x : Fin M → Fin 4 → EReal) (ew : Fin 64 → Fin 4 → EReal) (eb : Fin 64 → EReal)
    (n : Fin M) (j : Fin 64) : EReal :=
  (∑ l : Fin 4, x n l * ew j l) + eb j

/-- A product with a transposed weight: `(h · wᵀ)[n, j] = Σ_k h[n, k] · w[j, k]`. -/
def linC {M K N : ℕ} (h : Fin M → Fin K → EReal) (w : Fin N → Fin K → EReal) (n : Fin M) (j : Fin N) : EReal :=
  ∑ k : Fin K, h n k * w j k

/-- The activation, the degree factor `d` applied to the aggregate `a` first: `max (d·a + b) 0`. -/
def actC {M : ℕ} (a : Fin M → Fin 64 → EReal) (d : Fin M → EReal) (b : Fin 64 → EReal) (n : Fin M) (j : Fin 64) : EReal :=
  max (d n * a n j + b j) zeroW

/-- The activation of an aggregate that already carries its factors: `max (a + b) 0`. -/
def actR {M : ℕ} (a : Fin M → Fin 64 → EReal) (b : Fin 64 → EReal) (n : Fin M) (j : Fin 64) : EReal :=
  max (a n j + b j) zeroW

/-- Embedding, first weight, then the degree factor. -/
def G0C {M : ℕ} (x : Fin M → Fin 4 → EReal) (ew : Fin 64 → Fin 4 → EReal) (eb : Fin 64 → EReal)
    (w0 : Fin 64 → Fin 64 → EReal) (d : Fin M → EReal) (n : Fin M) (j : Fin 64) : EReal :=
  linC (embC x ew eb) w0 n j * d n

/-- Activation, next weight, then the degree factor. -/
def G1C {M : ℕ} (a : Fin M → Fin 64 → EReal) (d : Fin M → EReal) (b : Fin 64 → EReal)
    (w : Fin 64 → Fin 64 → EReal) (n : Fin M) (j : Fin 64) : EReal :=
  linC (actC a d b) w n j * d n

/-- The head: the pooled mean `g / max c 1`, a hidden layer with `max · 0`, the output layer. -/
def mlpC {M : ℕ} (g : Fin M → Fin 64 → EReal) (c : Fin M → EReal) (w1 : Fin 64 → Fin 64 → EReal) (b1 : Fin 64 → EReal)
    (w2 : Fin 3 → Fin 64 → EReal) (b2 : Fin 3 → EReal) (r : Fin M) (j : Fin 3) : EReal :=
  (∑ k : Fin 64, max ((∑ l : Fin 64, Ideal.div (g r l) (max (c r) oneW) * w1 k l) + b1 k) zeroW * w2 j k) + b2 j

end Cert.Spec

end
-- ==== Proof.KSpec.lean ====
/-
  The network as the kernel program arranges it, stated over the argument arrays.

  The degree factor `dinvC` of a node and the two index columns (sources, for the gather; destinations, for the
  accumulating scatter) are functions of the edge list alone, the same in both programs, and are never opened here.

  * `aggK u`  : the plain aggregation — gather the rows of `u` at the edge sources, add each at its edge destination.
  * `aggN t`  : the weighted aggregation — the gathered rows of `t` times the edge weight (the product of the two
                degree factors of the edge's ends) before they are added.
  * `u0`, `uNext`, `hLast` : the three stages of a layer with the degree factor moved out of the edge sum:
                a stage scales its rows by `dinvC` BEFORE the aggregation, the next stage scales the aggregate AFTER it.
  * `kOut`    : the pooled head over the last stage.
-/
import proofs.«113083_j47880295415877_2_alg».proof.Proof.ReadP
import proofs.«113083_j47880295415877_2_alg».proof.Proof.Spec

noncomputable section

namespace Cert.KSpec

open Cert.ReferenceIdeal Cert.ReferenceIdeal.ReadP Cert.Spec Idealize.ShloMosaic Idealize.ShloMosaic.ValueIdx

/-- The edge list `[2, E]`. -/
abbrev Edges : Type := IVec S2x3200000 32
/-- A node feature matrix `[N, 64]`. -/
abbrev NodeMat : Type := FVec Ideal S100000x64 .f32

/-- The degree factor of node `n`: `deg⁻¹ᐟ²` where the degree is positive, else `0`. -/
def dinvC (x1 : Edges) (n : Fin 100000) : EReal := val_main_v14 (F := Ideal) x1 (ix1 n)

/-- The plain aggregation: the rows of `u` gathered at the edge sources, each added at its edge destination. -/
def aggK (x1 : Edges) (u : NodeMat) : NodeMat :=
  Host.scatterAdd scatter_S100000x64_S3300000x1_S3300000x64_1_0_0_1 (val_main_v49 (F := Ideal)) (val_main_v50 (F := Ideal) x1)
    (Host.gather gather_S100000x64_S3300000x1_S3300000x64_1_0_n_n_0_1_164 u (val_main_v44 (F := Ideal) x1))

/-- The weighted aggregation: the gathered rows of `t` times the edge weight, each added at its edge destination. -/
def aggN (x1 : Edges) (t : NodeMat) : NodeMat :=
  Host.scatterAdd scatter_S100000x64_S3300000x1_S3300000x64_1_0_0_1 (val_main_v49 (F := Ideal)) (val_main_v50 (F := Ideal) x1)
    (mulf (Host.gather gather_S100000x64_S3300000x1_S3300000x64_1_0_n_n_0_1_164 t (val_main_v44 (F := Ideal) x1))
      (val_main_v47 (F := Ideal) x1))

/-- Layer `l`'s weight matrix out of the stacked weights. -/
def w5C (x5 : FVec Ideal S3x64x64 .f32) (l : Fin 3) (j k : Fin 64) : EReal := x5 (ix3 l j k)
/-- Layer `l`'s bias out of the stacked biases. -/
def b6C (x6 : FVec Ideal S3x64 .f32) (l : Fin 3) (j : Fin 64) : EReal := x6 (ix2 l j)

/-- The first stage: embedding, first weight, degree factor. -/
def u0 (x0 : FVec Ideal S100000x4 .f32) (x1 : Edges) (x3 : FVec Ideal S64x4 .f32) (x4 : FVec Ideal S64 .f32)
    (x5 : FVec Ideal S3x64x64 .f32) : NodeMat :=
  mat2 (G0C (at2 x0) (at2 x3) (vec x4) (w5C x5 0) (dinvC x1))

/-- A middle stage: aggregate, degree factor, bias, activation, next weight, degree factor. -/
def uNext (x1 : Edges) (u : NodeMat) (b : Fin 64 → EReal) (w : Fin 64 → Fin 64 → EReal) : NodeMat :=
  mat2 (G1C (at2 (aggK x1 u)) (dinvC x1) b w)

/-- The last stage: aggregate, degree factor, bias, activation. -/
def hLast (x1 : Edges) (u : NodeMat) (b : Fin 64 → EReal) : NodeMat :=
  mat2 (actC (at2 (aggK x1 u)) (dinvC x1) b)

/-- The node features after the three layers, as the kernel program arranges them. -/
def hK (x0 : FVec Ideal S100000x4 .f32) (x1 : Edges) (x3 : FVec Ideal S64x4 .f32) (x4 : FVec Ideal S64 .f32)
    (x5 : FVec Ideal S3x64x64 .f32) (x6 : FVec Ideal S3x64 .f32) : NodeMat :=
  hLast x1 (uNext x1 (uNext x1 (u0 x0 x1 x3 x4 x5) (b6C x6 0) (w5C x5 1)) (b6C x6 1) (w5C x5 2)) (b6C x6 2)

/-- The pooled sums of the node features over the graphs. -/
def poolK (x2 : IVec S100000 32) (h : NodeMat) : FVec Ideal S2000x64 .f32 :=
  Host.scatterAdd scatter_S2000x64_S100000x1_S100000x64_1_0_0_1 (val_main_v104 (F := Ideal)) (val_main_v105 (F := Ideal) x2) h

/-- The result, as the kernel program arranges it. -/
def kOut (x0 : FVec Ideal S100000x4 .f32) (x1 : Edges) (x2 : IVec S100000 32) (x3 : FVec Ideal S64x4 .f32)
    (x4 : FVec Ideal S64 .f32) (x5 : FVec Ideal S3x64x64 .f32) (x6 : FVec Ideal S3x64 .f32) (x7 : FVec Ideal S64x64 .f32)
    (x8 : FVec Ideal S64 .f32) (x9 : FVec Ideal S3x64 .f32) (x10 : FVec Ideal S3 .f32) : FVec Ideal S2000x3 .f32 :=
  mat2 (mlpC (at2 (poolK x2 (hK x0 x1 x3 x4 x5 x6))) (vec (val_main_v110 (F := Ideal) x2)) (at2 x7) (vec x8) (at2 x9) (vec x10))

end Cert.KSpec

end
-- ==== Proof.KDinv.lean ====
/-
  The degree-factor column the first kernel region finds, as the reference's own term.

  Before the first region the host composes, from the edge list `x1`: the targets of the edges followed by every node
  once (a row of the edge list, flattened, then all node numbers appended); the degree counts, one unit added at each
  of those positions onto zeros; the test "count above zero", the reciprocal square root of the counts, and the
  choice between that root and zero; finally the result as a one-column matrix. The reference program composes the
  same operations, so the buffer holds the reference's degree factor, as a column.

  The three stretches of host operations are read one at a time, the later two over ANY contents they start from
  (`after2_v15`, `after1_v14`): each only moves values between buffers, so nothing about the counts is needed there.
  The first stretch is read from the launch contents at the three buffers the later ones use (`W1_v12`, `W1_v13`,
  `W1_cst2`), the counts kept as ONE named term `kscat`.
-/
import proofs.«113083_j47880295415877_2_alg».proof.Proof.Gen.KernelIdeal.Frame
import proofs.«113083_j47880295415877_2_alg».proof.Proof.KSpec
import Idealize.ShloMosaic.Lib.StableHlo.Run

set_option maxRecDepth 16384

noncomputable section

open Idealize.ShloMosaic Idealize.ShloMosaic.TcCoe Idealize.SL.Sem Idealize.ShloMosaic.StableHlo

namespace Cert.KFold

open Cert.KernelIdeal Cert.KernelIdeal.Gen

variable (m : (ℓ : Loc nD τ sig) → Buf (Elt Ideal) ℓ) (ρ : Dev nD → PrngReg) (c : Dev nD)

/-- The degree counts: one unit scattered onto every edge's target and onto every node itself. -/
def kscat (x1 : IVec S2x3200000 32) : FVec Ideal S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] x1 slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))

/-! ## The third stretch and the second, over ANY contents they start from -/

theorem after2_v15 (Y : Valuation τ sig (Elt Ideal)) :
    StableHlo.after hostOps0_2 Y (Proc.devRef .tc main_v15)
      = shapeCast S100000x1 (Y (Proc.devRef .tc main_v14) : FVec Ideal S100000 .f32) shapeCasts_S100000_S100000x1 := by
  after_results
  rfl

theorem after1_v14 (Y : Valuation τ sig (Elt Ideal)) :
    StableHlo.after hostOps0_1 Y (Proc.devRef .tc main_v14)
      = select (Y (Proc.devRef .tc main_v12) : IVec S100000 1) (Y (Proc.devRef .tc main_v13) : FVec Ideal S100000 .f32)
          (broadcastInDim S100000 ![] bcast_S_S100000 (id (Y (Proc.devRef .tc main_cst_2) : FVec Ideal S_ .f32))) := by
  after_results
  rfl

/-! ## The first stretch, from the launch contents -/

set_option maxHeartbeats 4000000 in
theorem W1_v12 : StableHlo.after hostOps0 (W0 m ρ c) (Proc.devRef .tc main_v12)
    = cmpf (F := Ideal) .ogt (kscat (m ((c : Thread nD τ).loc main_arg1)))
        (broadcastInDim S100000 ![] bcast_S_S100000 (constant S_ .f32 0x00000000#32)) := by
  unfold kscat
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
theorem W1_v13 : StableHlo.after hostOps0 (W0 m ρ c) (Proc.devRef .tc main_v13)
    = Host.rsqrt (F := Ideal) (kscat (m ((c : Thread nD τ).loc main_arg1))) := by
  unfold kscat
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
theorem W1_cst2 : StableHlo.after hostOps0 (W0 m ρ c) (Proc.devRef .tc main_cst_2)
    = constant (F := Ideal) S_ .f32 0x00000000#32 := by
  after_results_simp

/-! ## The degree-factor buffer at the first region's entry -/

set_option maxHeartbeats 4000000 in
theorem W3_v15 : W3 m ρ c (Proc.devRef .tc main_v15)
    = shapeCast S100000x1 (Cert.ReferenceIdeal.ReadP.val_main_v14 (F := Ideal) (m ((c : Thread nD τ).loc main_arg1))) shapeCasts_S100000_S100000x1 := by
  show StableHlo.after hostOps0_2 (StableHlo.after hostOps0_1 (StableHlo.after hostOps0 (W0 m ρ c))) (Proc.devRef .tc main_v15) = _
  rw [after2_v15, after1_v14, W1_v12, W1_v13, W1_cst2]
  unfold kscat
  rfl

end Cert.KFold

end
-- ==== Proof.KCarry.lean ====
/-
  The long-lived buffers of the kernel program at every boundary between its host stretches and kernel regions.

  The program's buffer contents are a fold through its segments: a host stretch changes the buffers its operations
  write, a kernel region changes its output arrays only. So a buffer that no later segment writes holds, at every later
  boundary, what it held when it was written: the argument arrays hold the launch contents; the source and the
  destination index vectors (the edge list's two rows, each followed by the self loops) and the degree column hold what
  the first host stretch computed from the edge list. The degree column is an INPUT array of the first four regions:
  a region leaves its input arrays as it found them.
-/
import proofs.«113083_j47880295415877_2_alg».proof.Proof.Gen.KernelIdeal.Frame
import proofs.«113083_j47880295415877_2_alg».proof.Proof.KSpec
import proofs.«113083_j47880295415877_2_alg».proof.Proof.KDinv
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KFold

open Cert.KernelIdeal Cert.KernelIdeal.Gen

variable (m : (ℓ : Loc nD τ sig) → Buf (Elt Ideal) ℓ) (ρ : Dev nD → PrngReg) (c : Dev nD)

/-- A buffer no operation of a host stretch writes holds after the stretch what it held before. -/
macro "keep_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## At the first region's entry -/

set_option maxHeartbeats 4000000 in
theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

set_option maxHeartbeats 4000000 in
theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

set_option maxHeartbeats 4000000 in
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

set_option maxHeartbeats 4000000 in
theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

set_option maxHeartbeats 4000000 in
theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

set_option maxHeartbeats 4000000 in
theorem W3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

set_option maxHeartbeats 4000000 in
theorem W3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl

set_option maxHeartbeats 4000000 in
theorem W3_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp <;> rfl

set_option maxHeartbeats 4000000 in
theorem W3_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results_simp <;> rfl

set_option maxHeartbeats 4000000 in
/-- The source index vector: the edge list's first row, then the self loops. -/
theorem W3_v3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

set_option maxHeartbeats 4000000 in
/-- The destination index vector: the edge list's second row, then the self loops. -/
theorem W3_v6 : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

set_option maxHeartbeats 4000000 in
/-- The first layer's weight matrix, cut out of the stacked weights. -/
theorem W3_v17 : W3 m ρ c (Proc.devRef .tc main_v17)
    = shapeCast S64x64 (extractStridedSlice S1x64x64 ![0, 0, 0] (m ((c : Thread nD τ).loc main_arg5)) slices_S3x64x64_S1x64x64_0_0_0) shapeCasts_S1x64x64_S64x64 := by
  show StableHlo.after hostOps0_2 (StableHlo.after hostOps0_1 (StableHlo.after hostOps0 (W0 m ρ c))) (Proc.devRef .tc main_v17) = _
  after_results_simp <;> rfl

set_option maxHeartbeats 4000000 in
/-- The embedding bias as a row. -/
theorem W3_v18 : W3 m ρ c (Proc.devRef .tc main_v18) = shapeCast S1x64 (m ((c : Thread nD τ).loc main_arg4)) shapeCasts_S64_S1x64 := by
  show StableHlo.after hostOps0_2 (StableHlo.after hostOps0_1 (StableHlo.after hostOps0 (W0 m ρ c))) (Proc.devRef .tc main_v18) = _
  after_results_simp <;> rfl

/-! ## The long-lived buffers at every later boundary -/

theorem W4_arg2 : W4 m ρ c (Proc.devRef .tc main_arg2) = m ((c : Thread nD τ).loc main_arg2) :=
  (W4_of_ne m ρ c main_arg2 (by decide)).trans (W3_arg2 m ρ c)

theorem W5_arg2 : W5 m ρ c (Proc.devRef .tc main_arg2) = m ((c : Thread nD τ).loc main_arg2) :=
  (by keep_host hostOps1 : W5 m ρ c (Proc.devRef .tc main_arg2) = W4 m ρ c (Proc.devRef .tc main_arg2)).trans (W4_arg2 m ρ c)

theorem W6_arg2 : W6 m ρ c (Proc.devRef .tc main_arg2) = m ((c : Thread nD τ).loc main_arg2) :=
  (W6_of_ne m ρ c main_arg2 (by decide)).trans (W5_arg2 m ρ c)

theorem W7_arg2 : W7 m ρ c (Proc.devRef .tc main_arg2) = m ((c : Thread nD τ).loc main_arg2) :=
  (by keep_host hostOps2 : W7 m ρ c (Proc.devRef .tc main_arg2) = W6 m ρ c (Proc.devRef .tc main_arg2)).trans (W6_arg2 m ρ c)

theorem W8_arg2 : W8 m ρ c (Proc.devRef .tc main_arg2) = m ((c : Thread nD τ).loc main_arg2) :=
  (W8_of_ne m ρ c main_arg2 (by decide)).trans (W7_arg2 m ρ c)

theorem W9_arg2 : W9 m ρ c (Proc.devRef .tc main_arg2) = m ((c : Thread nD τ).loc main_arg2) :=
  (by keep_host hostOps3 : W9 m ρ c (Proc.devRef .tc main_arg2) = W8 m ρ c (Proc.devRef .tc main_arg2)).trans (W8_arg2 m ρ c)

theorem W10_arg2 : W10 m ρ c (Proc.devRef .tc main_arg2) = m ((c : Thread nD τ).loc main_arg2) :=
  (W10_of_ne m ρ c main_arg2 (by decide)).trans (W9_arg2 m ρ c)

theorem W4_arg5 : W4 m ρ c (Proc.devRef .tc main_arg5) = m ((c : Thread nD τ).loc main_arg5) :=
  (W4_of_ne m ρ c main_arg5 (by decide)).trans (W3_arg5 m ρ c)

theorem W5_arg5 : W5 m ρ c (Proc.devRef .tc main_arg5) = m ((c : Thread nD τ).loc main_arg5) :=
  (by keep_host hostOps1 : W5 m ρ c (Proc.devRef .tc main_arg5) = W4 m ρ c (Proc.devRef .tc main_arg5)).trans (W4_arg5 m ρ c)

theorem W6_arg5 : W6 m ρ c (Proc.devRef .tc main_arg5) = m ((c : Thread nD τ).loc main_arg5) :=
  (W6_of_ne m ρ c main_arg5 (by decide)).trans (W5_arg5 m ρ c)

theorem W4_arg6 : W4 m ρ c (Proc.devRef .tc main_arg6) = m ((c : Thread nD τ).loc main_arg6) :=
  (W4_of_ne m ρ c main_arg6 (by decide)).trans (W3_arg6 m ρ c)

theorem W5_arg6 : W5 m ρ c (Proc.devRef .tc main_arg6) = m ((c : Thread nD τ).loc main_arg6) :=
  (by keep_host hostOps1 : W5 m ρ c (Proc.devRef .tc main_arg6) = W4 m ρ c (Proc.devRef .tc main_arg6)).trans (W4_arg6 m ρ c)

theorem W6_arg6 : W6 m ρ c (Proc.devRef .tc main_arg6) = m ((c : Thread nD τ).loc main_arg6) :=
  (W6_of_ne m ρ c main_arg6 (by decide)).trans (W5_arg6 m ρ c)

theorem W7_arg6 : W7 m ρ c (Proc.devRef .tc main_arg6) = m ((c : Thread nD τ).loc main_arg6) :=
  (by keep_host hostOps2 : W7 m ρ c (Proc.devRef .tc main_arg6) = W6 m ρ c (Proc.devRef .tc main_arg6)).trans (W6_arg6 m ρ c)

theorem W8_arg6 : W8 m ρ c (Proc.devRef .tc main_arg6) = m ((c : Thread nD τ).loc main_arg6) :=
  (W8_of_ne m ρ c main_arg6 (by decide)).trans (W7_arg6 m ρ c)

theorem W4_arg7 : W4 m ρ c (Proc.devRef .tc main_arg7) = m ((c : Thread nD τ).loc main_arg7) :=
  (W4_of_ne m ρ c main_arg7 (by decide)).trans (W3_arg7 m ρ c)

theorem W5_arg7 : W5 m ρ c (Proc.devRef .tc main_arg7) = m ((c : Thread nD τ).loc main_arg7) :=
  (by keep_host hostOps1 : W5 m ρ c (Proc.devRef .tc main_arg7) = W4 m ρ c (Proc.devRef .tc main_arg7)).trans (W4_arg7 m ρ c)

theorem W6_arg7 : W6 m ρ c (Proc.devRef .tc main_arg7) = m ((c : Thread nD τ).loc main_arg7) :=
  (W6_of_ne m ρ c main_arg7 (by decide)).trans (W5_arg7 m ρ c)

theorem W7_arg7 : W7 m ρ c (Proc.devRef .tc main_arg7) = m ((c : Thread nD τ).loc main_arg7) :=
  (by keep_host hostOps2 : W7 m ρ c (Proc.devRef .tc main_arg7) = W6 m ρ c (Proc.devRef .tc main_arg7)).trans (W6_arg7 m ρ c)

theorem W8_arg7 : W8 m ρ c (Proc.devRef .tc main_arg7) = m ((c : Thread nD τ).loc main_arg7) :=
  (W8_of_ne m ρ c main_arg7 (by decide)).trans (W7_arg7 m ρ c)

theorem W9_arg7 : W9 m ρ c (Proc.devRef .tc main_arg7) = m ((c : Thread nD τ).loc main_arg7) :=
  (by keep_host hostOps3 : W9 m ρ c (Proc.devRef .tc main_arg7) = W8 m ρ c (Proc.devRef .tc main_arg7)).trans (W8_arg7 m ρ c)

theorem W10_arg7 : W10 m ρ c (Proc.devRef .tc main_arg7) = m ((c : Thread nD τ).loc main_arg7) :=
  (W10_of_ne m ρ c main_arg7 (by decide)).trans (W9_arg7 m ρ c)

theorem W11_arg7 : W11 m ρ c (Proc.devRef .tc main_arg7) = m ((c : Thread nD τ).loc main_arg7) :=
  (by keep_host hostOps4 : W11 m ρ c (Proc.devRef .tc main_arg7) = W10 m ρ c (Proc.devRef .tc main_arg7)).trans (W10_arg7 m ρ c)

theorem W4_arg9 : W4 m ρ c (Proc.devRef .tc main_arg9) = m ((c : Thread nD τ).loc main_arg9) :=
  (W4_of_ne m ρ c main_arg9 (by decide)).trans (W3_arg9 m ρ c)

theorem W5_arg9 : W5 m ρ c (Proc.devRef .tc main_arg9) = m ((c : Thread nD τ).loc main_arg9) :=
  (by keep_host hostOps1 : W5 m ρ c (Proc.devRef .tc main_arg9) = W4 m ρ c (Proc.devRef .tc main_arg9)).trans (W4_arg9 m ρ c)

theorem W6_arg9 : W6 m ρ c (Proc.devRef .tc main_arg9) = m ((c : Thread nD τ).loc main_arg9) :=
  (W6_of_ne m ρ c main_arg9 (by decide)).trans (W5_arg9 m ρ c)

theorem W7_arg9 : W7 m ρ c (Proc.devRef .tc main_arg9) = m ((c : Thread nD τ).loc main_arg9) :=
  (by keep_host hostOps2 : W7 m ρ c (Proc.devRef .tc main_arg9) = W6 m ρ c (Proc.devRef .tc main_arg9)).trans (W6_arg9 m ρ c)

theorem W8_arg9 : W8 m ρ c (Proc.devRef .tc main_arg9) = m ((c : Thread nD τ).loc main_arg9) :=
  (W8_of_ne m ρ c main_arg9 (by decide)).trans (W7_arg9 m ρ c)

theorem W9_arg9 : W9 m ρ c (Proc.devRef .tc main_arg9) = m ((c : Thread nD τ).loc main_arg9) :=
  (by keep_host hostOps3 : W9 m ρ c (Proc.devRef .tc main_arg9) = W8 m ρ c (Proc.devRef .tc main_arg9)).trans (W8_arg9 m ρ c)

theorem W10_arg9 : W10 m ρ c (Proc.devRef .tc main_arg9) = m ((c : Thread nD τ).loc main_arg9) :=
  (W10_of_ne m ρ c main_arg9 (by decide)).trans (W9_arg9 m ρ c)

theorem W11_arg9 : W11 m ρ c (Proc.devRef .tc main_arg9) = m ((c : Thread nD τ).loc main_arg9) :=
  (by keep_host hostOps4 : W11 m ρ c (Proc.devRef .tc main_arg9) = W10 m ρ c (Proc.devRef .tc main_arg9)).trans (W10_arg9 m ρ c)

theorem W4_arg8 : W4 m ρ c (Proc.devRef .tc main_arg8) = m ((c : Thread nD τ).loc main_arg8) :=
  (W4_of_ne m ρ c main_arg8 (by decide)).trans (W3_arg8 m ρ c)

theorem W5_arg8 : W5 m ρ c (Proc.devRef .tc main_arg8) = m ((c : Thread nD τ).loc main_arg8) :=
  (by keep_host hostOps1 : W5 m ρ c (Proc.devRef .tc main_arg8) = W4 m ρ c (Proc.devRef .tc main_arg8)).trans (W4_arg8 m ρ c)

theorem W6_arg8 : W6 m ρ c (Proc.devRef .tc main_arg8) = m ((c : Thread nD τ).loc main_arg8) :=
  (W6_of_ne m ρ c main_arg8 (by decide)).trans (W5_arg8 m ρ c)

theorem W7_arg8 : W7 m ρ c (Proc.devRef .tc main_arg8) = m ((c : Thread nD τ).loc main_arg8) :=
  (by keep_host hostOps2 : W7 m ρ c (Proc.devRef .tc main_arg8) = W6 m ρ c (Proc.devRef .tc main_arg8)).trans (W6_arg8 m ρ c)

theorem W8_arg8 : W8 m ρ c (Proc.devRef .tc main_arg8) = m ((c : Thread nD τ).loc main_arg8) :=
  (W8_of_ne m ρ c main_arg8 (by decide)).trans (W7_arg8 m ρ c)

theorem W9_arg8 : W9 m ρ c (Proc.devRef .tc main_arg8) = m ((c : Thread nD τ).loc main_arg8) :=
  (by keep_host hostOps3 : W9 m ρ c (Proc.devRef .tc main_arg8) = W8 m ρ c (Proc.devRef .tc main_arg8)).trans (W8_arg8 m ρ c)

theorem W10_arg8 : W10 m ρ c (Proc.devRef .tc main_arg8) = m ((c : Thread nD τ).loc main_arg8) :=
  (W10_of_ne m ρ c main_arg8 (by decide)).trans (W9_arg8 m ρ c)

theorem W4_arg10 : W4 m ρ c (Proc.devRef .tc main_arg10) = m ((c : Thread nD τ).loc main_arg10) :=
  (W4_of_ne m ρ c main_arg10 (by decide)).trans (W3_arg10 m ρ c)

theorem W5_arg10 : W5 m ρ c (Proc.devRef .tc main_arg10) = m ((c : Thread nD τ).loc main_arg10) :=
  (by keep_host hostOps1 : W5 m ρ c (Proc.devRef .tc main_arg10) = W4 m ρ c (Proc.devRef .tc main_arg10)).trans (W4_arg10 m ρ c)

theorem W6_arg10 : W6 m ρ c (Proc.devRef .tc main_arg10) = m ((c : Thread nD τ).loc main_arg10) :=
  (W6_of_ne m ρ c main_arg10 (by decide)).trans (W5_arg10 m ρ c)

theorem W7_arg10 : W7 m ρ c (Proc.devRef .tc main_arg10) = m ((c : Thread nD τ).loc main_arg10) :=
  (by keep_host hostOps2 : W7 m ρ c (Proc.devRef .tc main_arg10) = W6 m ρ c (Proc.devRef .tc main_arg10)).trans (W6_arg10 m ρ c)

theorem W8_arg10 : W8 m ρ c (Proc.devRef .tc main_arg10) = m ((c : Thread nD τ).loc main_arg10) :=
  (W8_of_ne m ρ c main_arg10 (by decide)).trans (W7_arg10 m ρ c)

theorem W9_arg10 : W9 m ρ c (Proc.devRef .tc main_arg10) = m ((c : Thread nD τ).loc main_arg10) :=
  (by keep_host hostOps3 : W9 m ρ c (Proc.devRef .tc main_arg10) = W8 m ρ c (Proc.devRef .tc main_arg10)).trans (W8_arg10 m ρ c)

theorem W10_arg10 : W10 m ρ c (Proc.devRef .tc main_arg10) = m ((c : Thread nD τ).loc main_arg10) :=
  (W10_of_ne m ρ c main_arg10 (by decide)).trans (W9_arg10 m ρ c)

theorem W4_v3 : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)

theorem W5_v3 : W5 m ρ c (Proc.devRef .tc main_v3) = Cert.ReferenceIdeal.ReadP.val_main_v3 (F := Ideal) (m ((c : Thread nD τ).loc main_arg1)) :=
  (by keep_host hostOps1 : W5 m ρ c (Proc.devRef .tc main_v3) = W4 m ρ c (Proc.devRef .tc main_v3)).trans (W4_v3 m ρ c)

theorem W6_v3 : W6 m ρ c (Proc.devRef .tc main_v3) = Cert.ReferenceIdeal.ReadP.val_main_v3 (F := Ideal) (m ((c : Thread nD τ).loc main_arg1)) :=
  (W6_of_ne m ρ c main_v3 (by decide)).trans (W5_v3 m ρ c)

theorem W7_v3 : W7 m ρ c (Proc.devRef .tc main_v3) = Cert.ReferenceIdeal.ReadP.val_main_v3 (F := Ideal) (m ((c : Thread nD τ).loc main_arg1)) :=
  (by keep_host hostOps2 : W7 m ρ c (Proc.devRef .tc main_v3) = W6 m ρ c (Proc.devRef .tc main_v3)).trans (W6_v3 m ρ c)

theorem W8_v3 : W8 m ρ c (Proc.devRef .tc main_v3) = Cert.ReferenceIdeal.ReadP.val_main_v3 (F := Ideal) (m ((c : Thread nD τ).loc main_arg1)) :=
  (W8_of_ne m ρ c main_v3 (by decide)).trans (W7_v3 m ρ c)

theorem W4_v6 : W4 m ρ c (Proc.devRef .tc main_v6) = Cert.ReferenceIdeal.ReadP.val_main_v6 (F := Ideal) (m ((c : Thread nD τ).loc main_arg1)) :=
  (W4_of_ne m ρ c main_v6 (by decide)).trans (W3_v6 m ρ c)

theorem W5_v6 : W5 m ρ c (Proc.devRef .tc main_v6) = Cert.ReferenceIdeal.ReadP.val_main_v6 (F := Ideal) (m ((c : Thread nD τ).loc main_arg1)) :=
  (by keep_host hostOps1 : W5 m ρ c (Proc.devRef .tc main_v6) = W4 m ρ c (Proc.devRef .tc main_v6)).trans (W4_v6 m ρ c)

theorem W6_v6 : W6 m ρ c (Proc.devRef .tc main_v6) = Cert.ReferenceIdeal.ReadP.val_main_v6 (F := Ideal) (m ((c : Thread nD τ).loc main_arg1)) :=
  (W6_of_ne m ρ c main_v6 (by decide)).trans (W5_v6 m ρ c)

theorem W7_v6 : W7 m ρ c (Proc.devRef .tc main_v6) = Cert.ReferenceIdeal.ReadP.val_main_v6 (F := Ideal) (m ((c : Thread nD τ).loc main_arg1)) :=
  (by keep_host hostOps2 : W7 m ρ c (Proc.devRef .tc main_v6) = W6 m ρ c (Proc.devRef .tc main_v6)).trans (W6_v6 m ρ c)

theorem W8_v6 : W8 m ρ c (Proc.devRef .tc main_v6) = Cert.ReferenceIdeal.ReadP.val_main_v6 (F := Ideal) (m ((c : Thread nD τ).loc main_arg1)) :=
  (W8_of_ne m ρ c main_v6 (by decide)).trans (W7_v6 m ρ c)

theorem W4_v15 : W4 m ρ c (Proc.devRef .tc main_v15) = shapeCast S100000x1 (Cert.ReferenceIdeal.ReadP.val_main_v14 (F := Ideal) (m ((c : Thread nD τ).loc main_arg1))) shapeCasts_S100000_S100000x1 :=
  (W4_arr m ρ c 4).trans (((dat0 (V3 m ρ) c).arrAt_in 4 rfl _).trans ((A_eq0 (V3 m ρ) c 4).trans (W3_v15 m ρ c)))

theorem W5_v15 : W5 m ρ c (Proc.devRef .tc main_v15) = shapeCast S100000x1 (Cert.ReferenceIdeal.ReadP.val_main_v14 (F := Ideal) (m ((c : Thread nD τ).loc main_arg1))) shapeCasts_S100000_S100000x1 :=
  (by keep_host hostOps1 : W5 m ρ c (Proc.devRef .tc main_v15) = W4 m ρ c (Proc.devRef .tc main_v15)).trans (W4_v15 m ρ c)

theorem W6_v15 : W6 m ρ c (Proc.devRef .tc main_v15) = shapeCast S100000x1 (Cert.ReferenceIdeal.ReadP.val_main_v14 (F := Ideal) (m ((c : Thread nD τ).loc main_arg1))) shapeCasts_S100000_S100000x1 :=
  (W6_arr m ρ c 1).trans (((dat1 (V5 m ρ) c).arrAt_in 1 rfl _).trans ((A_eq1 (V5 m ρ) c 1).trans (W5_v15 m ρ c)))

theorem W7_v15 : W7 m ρ c (Proc.devRef .tc main_v15) = shapeCast S100000x1 (Cert.ReferenceIdeal.ReadP.val_main_v14 (F := Ideal) (m ((c : Thread nD τ).loc main_arg1))) shapeCasts_S100000_S100000x1 :=
  (by keep_host hostOps2 : W7 m ρ c (Proc.devRef .tc main_v15) = W6 m ρ c (Proc.devRef .tc main_v15)).trans (W6_v15 m ρ c)

theorem W8_v15 : W8 m ρ c (Proc.devRef .tc main_v15) = shapeCast S100000x1 (Cert.ReferenceIdeal.ReadP.val_main_v14 (F := Ideal) (m ((c : Thread nD τ).loc main_arg1))) shapeCasts_S100000_S100000x1 :=
  (W8_arr m ρ c 1).trans (((dat2 (V7 m ρ) c).arrAt_in 1 rfl _).trans ((A_eq2 (V7 m ρ) c 1).trans (W7_v15 m ρ c)))

theorem W9_v15 : W9 m ρ c (Proc.devRef .tc main_v15) = shapeCast S100000x1 (Cert.ReferenceIdeal.ReadP.val_main_v14 (F := Ideal) (m ((c : Thread nD τ).loc main_arg1))) shapeCasts_S100000_S100000x1 :=
  (by keep_host hostOps3 : W9 m ρ c (Proc.devRef .tc main_v15) = W8 m ρ c (Proc.devRef .tc main_v15)).trans (W8_v15 m ρ c)

end Cert.KFold

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Pay0.lean ====
/-
  The embedding-and-first-weight kernel's stored value, read at an index, on the extended reals.

  The body embeds the node features, `emb n k = (Σ_l x n l * ew k l) + eb k` (a matrix product with the transposed
  embedding weight into a zero accumulator, plus the bias row), multiplies by the transposed first weight (a second
  product into a zero accumulator), and scales row `n` by that row's degree factor: at `(n, j)` it is
  `(Σ_k emb n k * w0 j k) * d n`. The format changes on the way into the products are the identity on the
  extended reals.
-/
import proofs.«113083_j47880295415877_2_alg».proof.Proof.Gen.KernelIdeal.Skeleton
import proofs.«113083_j47880295415877_2_alg».proof.Proof.Spec
import proofs.«113083_j47880295415877_2_alg».proof.Proof.LibPlainDot
import proofs.«113083_j47880295415877_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.Pay

open Cert.KernelIdeal Cert.KernelIdeal.Gen Cert.Spec Cert.Lib Idealize.ShloMosaic Idealize.ShloMosaic.ValueIdx

/-- The dimension numbers of the `2000×4` by `4×64` product are the plain ones. -/
theorem k0_dot_emb_eq_plain : dot_S2000x4_S4x64_S2000x64_1_0_0_1_n_n = DotDims.plain 2000 4 64 := rfl

/-- The dimension numbers of the `2000×64` by `64×64` product are the plain ones. -/
theorem k0_dot_w0_eq_plain : dot_S2000x64_S64x64_S2000x64_1_0_0_1_n_n = DotDims.plain 2000 64 64 := rfl

/-- The stored value at `(p, q)` is `(Σ_k ((Σ_l x p l * ew k l) + eb k) * w0 q k) * d p`. -/
theorem k0_pay1_apply (x0 : Vec Ideal S2000x4 .f32) (x1 : Vec Ideal S64x4 .f32) (x2 : Vec Ideal S1x64 .f32)
    (x3 : Vec Ideal S64x64 .f32) (x4 : Vec Ideal S2000x1 .f32) (p : Fin 2000) (q : Fin 64) :
    k0_pay1 (F := Ideal) x0 x1 x2 x3 x4 (ix2 p q) = G0C (at2 x0) (at2 x1) (row x2) (at2 x3) (col x4) p q := by
  unfold k0_pay1
  simp only [shapeCast_self]
  rw [mulf_apply, broadcastTo_a1_ab_apply, k0_dot_w0_eq_plain, plain_matmul_zero_apply]
  refine congrArg (· * col x4 p) (Finset.sum_congr rfl fun k _ => ?_)
  rw [truncf_apply, transpose_ix2_apply, truncf_apply, addf_apply, broadcastTo_1b_ab_apply, k0_dot_emb_eq_plain,
    plain_matmul_zero_apply]
  refine congrArg (· * at2 x3 q k) (congrArg (· + row x2 k) (Finset.sum_congr rfl fun l _ => ?_))
  rw [truncf_apply, transpose_ix2_apply, truncf_apply]
  rfl

end Cert.Pay

end
-- ==== Proof.KRegion0.lean ====
/-
  The first kernel region's output array, as one function of the arrays the region finds.

  The region runs over 50 grid points; point `t` reads rows `2000·t … 2000·t + 1999` of the node features and of the
  degree column, the whole embedding weight, bias row and first layer weight, and writes back rows
  `2000·t … 2000·t + 1999` of the output. A row of the output depends on the same row of the row-indexed inputs
  only (`G0C_congr`), so the block a point writes is that block of ONE whole-array function `G0`
  (`flushed0_eq`); the 50 blocks tile the array (the point covering row `r` is `r / 2000`), hence the array ends
  holding `G0` (`final0`).
-/
import proofs.«113083_j47880295415877_2_alg».proof.Proof.Gen.KernelIdeal.Frame
import proofs.«113083_j47880295415877_2_alg».proof.Proof.Spec
import proofs.«113083_j47880295415877_2_alg».proof.Proof.Pay0
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KRegion

open Cert.KernelIdeal Cert.KernelIdeal.Gen Cert.Spec

variable (V : (c : Dev nD) → (b : Ref sig .tc) → Buf (Elt Ideal) ((c : Thread nD τ).loc b))

theorem hz0 : (![0, 0] : Fin 2 → Nat) = fun _ => 0 := funext fun a => by fin_cases a <;> rfl

theorem G0C_congr {M M' : ℕ} (x : Fin M → Fin 4 → EReal) (x' : Fin M' → Fin 4 → EReal) (ew ew' : Fin 64 → Fin 4 → EReal)
    (eb eb' : Fin 64 → EReal) (w0 w0' : Fin 64 → Fin 64 → EReal) (d : Fin M → EReal) (d' : Fin M' → EReal)
    (p : Fin M) (n : Fin M') (q : Fin 64) (hx : ∀ l, x p l = x' n l) (hew : ew = ew') (heb : eb = eb') (hw : w0 = w0')
    (hd : d p = d' n) : G0C x ew eb w0 d p q = G0C x' ew' eb' w0' d' n q := by
  subst hew heb hw
  unfold G0C linC embC
  simp only [hx, hd]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first stage's array. -/
def G0 (c : Dev nD) : FVec Ideal S100000x64 .f32 :=
  mat2 (G0C (at2 (V c main_arg0)) (at2 (V c main_arg3)) (row (V c main_v18)) (at2 (V c main_v17)) (col (V c main_v15)))

theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S2000x4) hz0, View.ld_unit_zero (S := S64x4) hz0, View.ld_unit_zero (S := S1x64) hz0,
    View.ld_unit_zero (S := S64x64) hz0, View.ld_unit_zero (S := S2000x1) hz0]
  funext y
  obtain ⟨p, q, rfl⟩ : ∃ (p : Fin 2000) (q : Fin 64), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
     = G0 V c (((cfg0.win 5).blk t).view.emb (ix2 p q))
  rw [Cert.Pay.k0_pay1_apply]
  obtain ⟨e00, e01, e10, e11, e20, e21, e30, e31, e40, e41, e50, e51⟩ := idx_facts0 t
  have hN : t.val < 50 := by have h1 := t.isLt; have h2 : cfg0.N = 50 := N_0; omega
  have hp : p.val < 2000 := p.isLt
  have hemb : ((cfg0.win 5).blk t).view.emb (ix2 p q) = ix2 (⟨t.val * 2000 + p.val, by omega⟩ : Fin 100000) q := by
    funext a; apply Fin.ext
    match a with
    | ⟨0, _⟩ => show win0_5.index t (0 : Fin 2) * 2000 + 1 * p.val = t.val * 2000 + p.val; rw [e50]; omega
    | ⟨1, _⟩ => show win0_5.index t (1 : Fin 2) * 64 + 1 * q.val = q.val; rw [e51]; omega
  rw [hemb]
  unfold G0
  rw [mat2_apply]
  refine G0C_congr _ _ _ _ _ _ _ _ _ _ p _ q (fun l => ?_) (funext fun k => funext fun l => ?_) (funext fun k => ?_)
    (funext fun j => funext fun k => ?_) ?_
  · unfold at2 iblk0
    rw [View.read_apply]
    show V c main_arg0 (((cfg0.win 0).blk t).view.emb (ix2 p l)) = V c main_arg0 (ix2 ⟨t.val * 2000 + p.val, by omega⟩ l)
    refine congrArg _ ?_
    funext a; apply Fin.ext
    match a with
    | ⟨0, _⟩ => show win0_0.index t (0 : Fin 2) * 2000 + 1 * p.val = t.val * 2000 + p.val; rw [e00]; omega
    | ⟨1, _⟩ => show win0_0.index t (1 : Fin 2) * 4 + 1 * l.val = l.val; rw [e01]; omega
  · unfold at2 iblk0
    rw [View.read_apply]
    show V c main_arg3 (((cfg0.win 1).blk t).view.emb (ix2 k l)) = V c main_arg3 (ix2 k l)
    refine congrArg _ ?_
    funext a; apply Fin.ext
    match a with
    | ⟨0, _⟩ => show win0_1.index t (0 : Fin 2) * 64 + 1 * k.val = k.val; rw [e10]; omega
    | ⟨1, _⟩ => show win0_1.index t (1 : Fin 2) * 4 + 1 * l.val = l.val; rw [e11]; omega
  · unfold row iblk0
    rw [View.read_apply]
    show V c main_v18 (((cfg0.win 2).blk t).view.emb (ix2 (0 : Fin 1) k)) = V c main_v18 (ix2 (0 : Fin 1) k)
    refine congrArg _ ?_
    funext a; apply Fin.ext
    match a with
    | ⟨0, _⟩ => show win0_2.index t (0 : Fin 2) * 1 + 1 * 0 = 0; rw [e20]
    | ⟨1, _⟩ => show win0_2.index t (1 : Fin 2) * 64 + 1 * k.val = k.val; rw [e21]; omega
  · unfold at2 iblk0
    rw [View.read_apply]
    show V c main_v17 (((cfg0.win 3).blk t).view.emb (ix2 j k)) = V c main_v17 (ix2 j k)
    refine congrArg _ ?_
    funext a; apply Fin.ext
    match a with
    | ⟨0, _⟩ => show win0_3.index t (0 : Fin 2) * 64 + 1 * j.val = j.val; rw [e30]; omega
    | ⟨1, _⟩ => show win0_3.index t (1 : Fin 2) * 64 + 1 * k.val = k.val; rw [e31]; omega
  · unfold col iblk0
    rw [View.read_apply]
    show V c main_v15 (((cfg0.win 4).blk t).view.emb (ix2 p (0 : Fin 1))) = V c main_v15 (ix2 ⟨t.val * 2000 + p.val, by omega⟩ (0 : Fin 1))
    refine congrArg _ ?_
    funext a; apply Fin.ext
    match a with
    | ⟨0, _⟩ => show win0_4.index t (0 : Fin 2) * 2000 + 1 * p.val = t.val * 2000 + p.val; rw [e40]; omega
    | ⟨1, _⟩ => show win0_4.index t (1 : Fin 2) * 1 + 1 * 0 = 0; rw [e41]

theorem mem_blk0 (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v19).slice (win0_5.rect t)).set ↔ _
  rw [View.set_slice_whole, Rect.mem_set_unit]
  exact Iff.rfl

theorem final0 (c : Dev nD) : (dat0 V c).arrAt 5 cfg0.N = G0 V c :=
  (dat0 V c).arrAt_eq_of_cover 5 (G0 V c) (fun t _ => flushed0_eq V c t) fun i => by
    have hi0 : (i 0).val < 100000 := (i 0).isLt
    have hi1 : (i 1).val < 64 := (i 1).isLt
    have hN : cfg0.N = 50 := N_0
    let t : Fin cfg0.N := ⟨(i 0).val / 2000, by rw [hN]; omega⟩
    obtain ⟨e00, e01, e10, e11, e20, e21, e30, e31, e40, e41, e50, e51⟩ := idx_facts0 t
    refine ⟨t, flush0_5 t, ?_⟩
    rw [mem_blk0]
    intro a
    match a with
    | ⟨0, _⟩ => show win0_5.index t (0 : Fin 2) * 2000 ≤ (i 0).val ∧ (i 0).val < win0_5.index t (0 : Fin 2) * 2000 + 2000; rw [e50]; show (i 0).val / 2000 * 2000 ≤ (i 0).val ∧ (i 0).val < (i 0).val / 2000 * 2000 + 2000; omega
    | ⟨1, _⟩ => show win0_5.index t (1 : Fin 2) * 64 ≤ (i 1).val ∧ (i 1).val < win0_5.index t (1 : Fin 2) * 64 + 64; rw [e51]; omega

end Cert.KRegion
end
-- ==== Proof.KLayout.lean ====
/-
  The kernel program's host reshapes and slices, read coordinate by coordinate.

  * A vector reshaped to a one-row matrix is read by its column; reshaped to a one-column matrix, by its row.
  * Layer `l`'s weight: the slice `l` of the stacked weights `[3, 64, 64]`, reshaped to `[64, 64]`, is the matrix
    `(j, k) ↦ x5 (l, j, k)`.
  * Layer `l`'s bias: the slice `l` of the stacked biases `[3, 64]`, reshaped to a vector and back to a one-row
    matrix, is the row `q ↦ x6 (l, q)`.

  A reshape keeps the row-major position, a slice adds its offset: on these shapes the position arithmetic is
  `0 · a + i = i` and `l + 0 = l`.
-/
import proofs.«113083_j47880295415877_2_alg».proof.KernelIdeal
import proofs.«113083_j47880295415877_2_alg».proof.Proof.KSpec
import proofs.«113083_j47880295415877_2_alg».proof.Proof.LibKeepdims
import Idealize.ShloMosaic.Lib.ValueLayout
import Idealize.ShloMosaic.Lib.Pipeline.Value
import Idealize.ShloMosaic.Lib.ValueIdx

noncomputable section

namespace Cert.KLayout

open Cert.KernelIdeal Cert.Spec Cert.KSpec Idealize.ShloMosaic Idealize.ShloMosaic.ValueIdx

variable [Facts₀]
open Facts₀

theorem row_of_vec64 (x : FVec Ideal S64 .f32) : row (shapeCast S1x64 x shapeCasts_S64_S1x64) = vec x := by
  funext q
  exact shapeCast_a_1a_apply x shapeCasts_S64_S1x64 (0 : Fin 1) q

theorem row_of_vec3 (x : FVec Ideal S3 .f32) : row (shapeCast S1x3 x shapeCasts_S3_S1x3) = vec x := by
  funext q
  exact shapeCast_a_1a_apply x shapeCasts_S3_S1x3 (0 : Fin 1) q

theorem col_of_vecN (x : FVec Ideal S100000 .f32) : col (shapeCast S100000x1 x shapeCasts_S100000_S100000x1) = vec x := by
  funext p
  exact Cert.Lib.shapeCast_a_a1_apply x shapeCasts_S100000_S100000x1 p (0 : Fin 1)

theorem col_of_vecG (x : FVec Ideal S2000 .f32) : col (shapeCast S2000x1 x shapeCasts_S2000_S2000x1) = vec x := by
  funext p
  exact Cert.Lib.shapeCast_a_a1_apply x shapeCasts_S2000_S2000x1 p (0 : Fin 1)

theorem w_slice0 (x5 : FVec Ideal S3x64x64 .f32) :
    at2 (shapeCast S64x64 (extractStridedSlice S1x64x64 ![0, 0, 0] x5 slices_S3x64x64_S1x64x64_0_0_0) shapeCasts_S1x64x64_S64x64)
      = w5C x5 0 := by
  funext j k
  show shapeCast S64x64 (extractStridedSlice S1x64x64 ![0, 0, 0] x5 slices_S3x64x64_S1x64x64_0_0_0) shapeCasts_S1x64x64_S64x64 (ix2 j k)
    = x5 (ix3 0 j k)
  refine (shapeCast_1ab_ab_apply _ _ j k).trans ?_
  exact extractStridedSlice_apply ![0, 0, 0] x5 slices_S3x64x64_S1x64x64_0_0_0 (ix3 (0 : Fin 1) j k) (ix3 0 j k) (fun a =>
    match a with
    | ⟨0, _⟩ => rfl
    | ⟨1, _⟩ => by show j.val = 0 + j.val; omega
    | ⟨2, _⟩ => by show k.val = 0 + k.val; omega)

theorem w_slice1 (x5 : FVec Ideal S3x64x64 .f32) :
    at2 (shapeCast S64x64 (extractStridedSlice S1x64x64 ![1, 0, 0] x5 slices_S3x64x64_S1x64x64_1_0_0) shapeCasts_S1x64x64_S64x64)
      = w5C x5 1 := by
  funext j k
  show shapeCast S64x64 (extractStridedSlice S1x64x64 ![1, 0, 0] x5 slices_S3x64x64_S1x64x64_1_0_0) shapeCasts_S1x64x64_S64x64 (ix2 j k)
    = x5 (ix3 1 j k)
  refine (shapeCast_1ab_ab_apply _ _ j k).trans ?_
  exact extractStridedSlice_apply ![1, 0, 0] x5 slices_S3x64x64_S1x64x64_1_0_0 (ix3 (0 : Fin 1) j k) (ix3 1 j k) (fun a =>
    match a with
    | ⟨0, _⟩ => rfl
    | ⟨1, _⟩ => by show j.val = 0 + j.val; omega
    | ⟨2, _⟩ => by show k.val = 0 + k.val; omega)

theorem w_slice2 (x5 : FVec Ideal S3x64x64 .f32) :
    at2 (shapeCast S64x64 (extractStridedSlice S1x64x64 ![2, 0, 0] x5 slices_S3x64x64_S1x64x64_2_0_0) shapeCasts_S1x64x64_S64x64)
      = w5C x5 2 := by
  funext j k
  show shapeCast S64x64 (extractStridedSlice S1x64x64 ![2, 0, 0] x5 slices_S3x64x64_S1x64x64_2_0_0) shapeCasts_S1x64x64_S64x64 (ix2 j k)
    = x5 (ix3 2 j k)
  refine (shapeCast_1ab_ab_apply _ _ j k).trans ?_
  exact extractStridedSlice_apply ![2, 0, 0] x5 slices_S3x64x64_S1x64x64_2_0_0 (ix3 (0 : Fin 1) j k) (ix3 2 j k) (fun a =>
    match a with
    | ⟨0, _⟩ => rfl
    | ⟨1, _⟩ => by show j.val = 0 + j.val; omega
    | ⟨2, _⟩ => by show k.val = 0 + k.val; omega)

theorem b_slice0 (x6 : FVec Ideal S3x64 .f32) :
    row (shapeCast S1x64 (shapeCast S64 (extractStridedSlice S1x64 ![0, 0] x6 slices_S3x64_S1x64_0_0) shapeCasts_S1x64_S64) shapeCasts_S64_S1x64)
      = b6C x6 0 := by
  funext q
  show shapeCast S1x64 (shapeCast S64 (extractStridedSlice S1x64 ![0, 0] x6 slices_S3x64_S1x64_0_0) shapeCasts_S1x64_S64) shapeCasts_S64_S1x64
      (ix2 (0 : Fin 1) q) = x6 (ix2 0 q)
  refine (shapeCast_a_1a_apply _ _ (0 : Fin 1) q).trans ?_
  refine (shapeCast_1a_a_apply _ _ q).trans ?_
  exact extractStridedSlice_apply ![0, 0] x6 slices_S3x64_S1x64_0_0 (ix2 (0 : Fin 1) q) (ix2 0 q) (fun a =>
    match a with
    | ⟨0, _⟩ => rfl
    | ⟨1, _⟩ => by show q.val = 0 + q.val; omega)

theorem b_slice1 (x6 : FVec Ideal S3x64 .f32) :
    row (shapeCast S1x64 (shapeCast S64 (extractStridedSlice S1x64 ![1, 0] x6 slices_S3x64_S1x64_1_0) shapeCasts_S1x64_S64) shapeCasts_S64_S1x64)
      = b6C x6 1 := by
  funext q
  show shapeCast S1x64 (shapeCast S64 (extractStridedSlice S1x64 ![1, 0] x6 slices_S3x64_S1x64_1_0) shapeCasts_S1x64_S64) shapeCasts_S64_S1x64
      (ix2 (0 : Fin 1) q) = x6 (ix2 1 q)
  refine (shapeCast_a_1a_apply _ _ (0 : Fin 1) q).trans ?_
  refine (shapeCast_1a_a_apply _ _ q).trans ?_
  exact extractStridedSlice_apply ![1, 0] x6 slices_S3x64_S1x64_1_0 (ix2 (0 : Fin 1) q) (ix2 1 q) (fun a =>
    match a with
    | ⟨0, _⟩ => rfl
    | ⟨1, _⟩ => by show q.val = 0 + q.val; omega)

theorem b_slice2 (x6 : FVec Ideal S3x64 .f32) :
    row (shapeCast S1x64 (shapeCast S64 (extractStridedSlice S1x64 ![2, 0] x6 slices_S3x64_S1x64_2_0) shapeCasts_S1x64_S64) shapeCasts_S64_S1x64)
      = b6C x6 2 := by
  funext q
  show shapeCast S1x64 (shapeCast S64 (extractStridedSlice S1x64 ![2, 0] x6 slices_S3x64_S1x64_2_0) shapeCasts_S1x64_S64) shapeCasts_S64_S1x64
      (ix2 (0 : Fin 1) q) = x6 (ix2 2 q)
  refine (shapeCast_a_1a_apply _ _ (0 : Fin 1) q).trans ?_
  refine (shapeCast_1a_a_apply _ _ q).trans ?_
  exact extractStridedSlice_apply ![2, 0] x6 slices_S3x64_S1x64_2_0 (ix2 (0 : Fin 1) q) (ix2 2 q) (fun a =>
    match a with
    | ⟨0, _⟩ => rfl
    | ⟨1, _⟩ => by show q.val = 0 + q.val; omega)

end Cert.KLayout

end
-- ==== Proof.KFold0.lean ====
/-
  The first kernel region's output in terms of the argument arrays.

  The region finds the node features and the embedding weight as launched, the embedding bias as a row, the first
  layer's weight cut out of the stacked weights and the degree column; its output array is the first stage `u0`:
  embedding, first weight, degree factor.
-/
import proofs.«113083_j47880295415877_2_alg».proof.Proof.KCarry
import proofs.«113083_j47880295415877_2_alg».proof.Proof.KRegion0
import proofs.«113083_j47880295415877_2_alg».proof.Proof.KLayout
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KFold

open Cert.KernelIdeal Cert.KernelIdeal.Gen Cert.Spec Cert.KSpec Cert.KRegion Cert.KLayout

variable (m : (ℓ : Loc nD τ sig) → Buf (Elt Ideal) ℓ) (ρ : Dev nD → PrngReg) (c : Dev nD)

/-- The first region's output array is the first stage. -/
theorem out0 : W4 m ρ c (Proc.devRef .tc main_v19) = u0 (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 5).trans ((final0 (V3 m ρ) c).trans ?_)
  unfold G0 u0
  simp only [V3, W3_arg0 m ρ c, W3_arg3 m ρ c, W3_v18 m ρ c, W3_v17 m ρ c, W3_v15 m ρ c]
  refine congrArg mat2 (funext fun n => funext fun j => ?_)
  exact G0C_congr _ _ _ _ _ _ _ _ _ _ n n j (fun _ => rfl) rfl (row_of_vec64 _) (w_slice0 _) (congrFun (col_of_vecN _) n)

end Cert.KFold

end
-- ==== Proof.Pay1.lean ====
/-
  The activation-and-weight kernel's stored value, read at an index, on the extended reals.

  The body forms the activation `max (d n * a n k + b k) 0` of the aggregate, multiplies it by the transposed
  weight (a matrix product into a zero accumulator: the plain sum over the contraction index), and scales row `n`
  by that row's second factor `e n`: at `(n, j)` it is `(Σ_k act n k * w j k) * e n`. The format changes on the way
  into the product are the identity on the extended reals.
-/
import proofs.«113083_j47880295415877_2_alg».proof.Proof.Gen.KernelIdeal.Skeleton
import proofs.«113083_j47880295415877_2_alg».proof.Proof.Spec
import proofs.«113083_j47880295415877_2_alg».proof.Proof.LibPlainDot
import proofs.«113083_j47880295415877_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.Pay

open Cert.KernelIdeal Cert.KernelIdeal.Gen Cert.Spec Cert.Lib Idealize.ShloMosaic Idealize.ShloMosaic.ValueIdx

/-- The dimension numbers of the `2000×64` by `64×64` product are the plain ones. -/
theorem dot_2000_64_64_eq_plain : dot_S2000x64_S64x64_S2000x64_1_0_0_1_n_n = DotDims.plain 2000 64 64 := rfl

/-- The stored value at `(p, q)` is `(Σ_k act p k * w q k) * e p`. -/
theorem k1_pay1_apply (v0 : Vec Ideal S2000x1 .f32) (v2 : Vec Ideal S2000x64 .f32) (v6 : Vec Ideal S1x64 .f32)
    (v13 : Vec Ideal S64x64 .f32) (v18 : Vec Ideal S2000x1 .f32) (p : Fin 2000) (q : Fin 64) :
    k1_pay1 (F := Ideal) v0 v2 v6 v13 v18 (ix2 p q)
      = linC (actC (at2 v2) (col v0) (row v6)) (at2 v13) p q * col v18 p := by
  unfold k1_pay1
  simp only [shapeCast_self]
  rw [mulf_apply, broadcastTo_a1_ab_apply, dot_2000_64_64_eq_plain, plain_matmul_zero_apply]
  refine congrArg (· * col v18 p) (Finset.sum_congr rfl fun k _ => ?_)
  rw [truncf_apply, transpose_ix2_apply, truncf_apply, maximumf_apply, addf_apply, mulf_apply, broadcast_apply,
    broadcastTo_a1_ab_apply, broadcastTo_1b_ab_apply]
  rfl

/-- The same body a second time: the stored value at `(p, q)` is `(Σ_k act p k * w q k) * e p`. -/
theorem k2_pay1_apply (v0 : Vec Ideal S2000x1 .f32) (v2 : Vec Ideal S2000x64 .f32) (v6 : Vec Ideal S1x64 .f32)
    (v13 : Vec Ideal S64x64 .f32) (v18 : Vec Ideal S2000x1 .f32) (p : Fin 2000) (q : Fin 64) :
    k2_pay1 (F := Ideal) v0 v2 v6 v13 v18 (ix2 p q)
      = linC (actC (at2 v2) (col v0) (row v6)) (at2 v13) p q * col v18 p :=
  k1_pay1_apply v0 v2 v6 v13 v18 p q

end Cert.Pay

end
-- ==== Proof.KRegion1.lean ====
/-
  The second kernel region's output array, as one function of the arrays the region finds.

  The region runs over 50 grid points; point `t` reads rows `2000·t … 2000·t + 1999` of the aggregate and of the
  degree column, the whole bias row and the whole layer weight, and writes back rows `2000·t … 2000·t + 1999` of the
  output. A row of the output depends on the same row of the row-indexed inputs only (`G1C_congr`), so the block a
  point writes is that block of ONE whole-array function `G1` (`flushed1_eq`); the 50 blocks tile the array (the
  point covering row `r` is `r / 2000`), hence the array ends holding `G1` (`final1`).
-/
import proofs.«113083_j47880295415877_2_alg».proof.Proof.Gen.KernelIdeal.Frame
import proofs.«113083_j47880295415877_2_alg».proof.Proof.Spec
import proofs.«113083_j47880295415877_2_alg».proof.Proof.Pay1
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KRegion

open Cert.KernelIdeal Cert.KernelIdeal.Gen Cert.Spec

variable (V : (c : Dev nD) → (b : Ref sig .tc) → Buf (Elt Ideal) ((c : Thread nD τ).loc b))

theorem hz1 : (![0, 0] : Fin 2 → Nat) = fun _ => 0 := funext fun a => by fin_cases a <;> rfl

/-- Row `p` of activation, weight, degree factor depends on row `p` of the aggregate and of the degree column only. -/
theorem G1C_congr {M M' : ℕ} (a : Fin M → Fin 64 → EReal) (a' : Fin M' → Fin 64 → EReal) (d : Fin M → EReal)
    (d' : Fin M' → EReal) (b b' : Fin 64 → EReal) (w w' : Fin 64 → Fin 64 → EReal) (p : Fin M) (n : Fin M') (q : Fin 64)
    (ha : ∀ k, a p k = a' n k) (hd : d p = d' n) (hb : b = b') (hw : w = w') :
    G1C a d b w p q = G1C a' d' b' w' n q := by
  subst hb hw
  unfold G1C linC actC
  simp only [ha, hd]

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The region's array: activation of the aggregate, the layer weight, then the degree factor. -/
def G1 (c : Dev nD) : FVec Ideal S100000x64 .f32 :=
  mat2 (G1C (at2 (V c main_v29)) (col (V c main_v15)) (row (V c main_v34)) (at2 (V c main_v33)))

theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S2000x64) hz1, View.ld_unit_zero (S := S1x64) hz1,
    View.ld_unit_zero (S := S64x64) hz1, View.ld_unit_zero (S := S2000x1) hz1]
  funext y
  obtain ⟨p, q, rfl⟩ : ∃ (p : Fin 2000) (q : Fin 64), y = ix2 p q := ⟨y 0, y 1, eq_ix2 y⟩
  show k1_pay1 (F := Ideal) (iblk1 V c 1 t) (iblk1 V c 0 t) (iblk1 V c 2 t) (iblk1 V c 3 t) (iblk1 V c 1 t) (ix2 p q)
     = G1 V c (((cfg1.win 4).blk t).view.emb (ix2 p q))
  rw [Cert.Pay.k1_pay1_apply]
  obtain ⟨e00, e01, e10, e11, e20, e21, e30, e31, e40, e41⟩ := idx_facts1 t
  have hN : t.val < 50 := by have h1 := t.isLt; have h2 : cfg1.N = 50 := N_1; omega
  have hp : p.val < 2000 := p.isLt
  have hemb : ((cfg1.win 4).blk t).view.emb (ix2 p q) = ix2 (⟨t.val * 2000 + p.val, by omega⟩ : Fin 100000) q := by
    funext a; apply Fin.ext
    match a with
    | ⟨0, _⟩ => show win1_4.index t (0 : Fin 2) * 2000 + 1 * p.val = t.val * 2000 + p.val; rw [e40]; omega
    | ⟨1, _⟩ => show win1_4.index t (1 : Fin 2) * 64 + 1 * q.val = q.val; rw [e41]; omega
  rw [hemb]
  unfold G1
  rw [mat2_apply]
  show G1C (at2 (iblk1 V c 0 t)) (col (iblk1 V c 1 t)) (row (iblk1 V c 2 t)) (at2 (iblk1 V c 3 t)) p q = _
  refine G1C_congr _ _ _ _ _ _ _ _ p _ q (fun k => ?_) ?_ (funext fun k => ?_) (funext fun j => funext fun k => ?_)
  · unfold at2 iblk1
    rw [View.read_apply]
    show V c main_v29 (((cfg1.win 0).blk t).view.emb (ix2 p k)) = V c main_v29 (ix2 ⟨t.val * 2000 + p.val, by omega⟩ k)
    refine congrArg _ ?_
    funext a; apply Fin.ext
    match a with
    | ⟨0, _⟩ => show win1_0.index t (0 : Fin 2) * 2000 + 1 * p.val = t.val * 2000 + p.val; rw [e00]; omega
    | ⟨1, _⟩ => show win1_0.index t (1 : Fin 2) * 64 + 1 * k.val = k.val; rw [e01]; omega
  · unfold col iblk1
    rw [View.read_apply]
    show V c main_v15 (((cfg1.win 1).blk t).view.emb (ix2 p (0 : Fin 1))) = V c main_v15 (ix2 ⟨t.val * 2000 + p.val, by omega⟩ (0 : Fin 1))
    refine congrArg _ ?_
    funext a; apply Fin.ext
    match a with
    | ⟨0, _⟩ => show win1_1.index t (0 : Fin 2) * 2000 + 1 * p.val = t.val * 2000 + p.val; rw [e10]; omega
    | ⟨1, _⟩ => show win1_1.index t (1 : Fin 2) * 1 + 1 * 0 = 0; rw [e11]
  · unfold row iblk1
    rw [View.read_apply]
    show V c main_v34 (((cfg1.win 2).blk t).view.emb (ix2 (0 : Fin 1) k)) = V c main_v34 (ix2 (0 : Fin 1) k)
    refine congrArg _ ?_
    funext a; apply Fin.ext
    match a with
    | ⟨0, _⟩ => show win1_2.index t (0 : Fin 2) * 1 + 1 * 0 = 0; rw [e20]
    | ⟨1, _⟩ => show win1_2.index t (1 : Fin 2) * 64 + 1 * k.val = k.val; rw [e21]; omega
  · unfold at2 iblk1
    rw [View.read_apply]
    show V c main_v33 (((cfg1.win 3).blk t).view.emb (ix2 j k)) = V c main_v33 (ix2 j k)
    refine congrArg _ ?_
    funext a; apply Fin.ext
    match a with
    | ⟨0, _⟩ => show win1_3.index t (0 : Fin 2) * 64 + 1 * j.val = j.val; rw [e30]; omega
    | ⟨1, _⟩ => show win1_3.index t (1 : Fin 2) * 64 + 1 * k.val = k.val; rw [e31]; omega

theorem mem_blk1 (t : Fin cfg1.N) (i : S100000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v35).slice (win1_4.rect t)).set ↔ _
  rw [View.set_slice_whole, Rect.mem_set_unit]
  exact Iff.rfl

theorem final1 (c : Dev nD) : (dat1 V c).arrAt 4 cfg1.N = G1 V c :=
  (dat1 V c).arrAt_eq_of_cover 4 (G1 V c) (fun t _ => flushed1_eq V c t) fun i => by
    have hi0 : (i 0).val < 100000 := (i 0).isLt
    have hi1 : (i 1).val < 64 := (i 1).isLt
    have hN : cfg1.N = 50 := N_1
    let t : Fin cfg1.N := ⟨(i 0).val / 2000, by rw [hN]; omega⟩
    obtain ⟨e00, e01, e10, e11, e20, e21, e30, e31, e40, e41⟩ := idx_facts1 t
    refine ⟨t, flush1_4 t, ?_⟩
    rw [mem_blk1]
    intro a
    match a with
    | ⟨0, _⟩ => show win1_4.index t (0 : Fin 2) * 2000 ≤ (i 0).val ∧ (i 0).val < win1_4.index t (0 : Fin 2) * 2000 + 2000; rw [e40]; show (i 0).val / 2000 * 2000 ≤ (i 0).val ∧ (i 0).val < (i 0).val / 2000 * 2000 + 2000; omega
    | ⟨1, _⟩ => show win1_4.index t (1 : Fin 2) * 64 ≤ (i 1).val ∧ (i 1).val < win1_4.index t (1 : Fin 2) * 64 + 64; rw [e41]; omega

end Cert.KRegion
end
-- ==== Proof.KFold1.lean ====
/-
  The second kernel region's output in terms of the argument arrays.

  Between the first two regions the host gathers the first stage's rows at the edge sources and adds them at the edge
  destinations; the second region applies the degree factor, the first bias and the activation, then the second
  layer's weight and the degree factor again: the middle stage `uNext`.
-/
import proofs.«113083_j47880295415877_2_alg».proof.Proof.KFold0
import proofs.«113083_j47880295415877_2_alg».proof.Proof.KRegion1
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KFold

open Cert.KernelIdeal Cert.KernelIdeal.Gen Cert.Spec Cert.KSpec Cert.KRegion Cert.KLayout

variable (m : (ℓ : Loc nD τ sig) → Buf (Elt Ideal) ℓ) (ρ : Dev nD → PrngReg) (c : Dev nD)

set_option maxHeartbeats 4000000 in
/-- The aggregate the region reads: the previous stage's rows gathered at the edge sources, added at the edge destinations. -/
theorem W5_v29 : W5 m ρ c (Proc.devRef .tc main_v29) = aggK (m ((c : Thread nD τ).loc main_arg1)) (u0 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps1 (W4 m ρ c) (Proc.devRef .tc main_v29) = _
  after_results_simp
  simp only [W4_v3 m ρ c, W4_v6 m ρ c, out0 m ρ c]
  unfold aggK
  rfl

set_option maxHeartbeats 4000000 in
theorem W5_v34 : W5 m ρ c (Proc.devRef .tc main_v34) = shapeCast S1x64 (shapeCast S64 (extractStridedSlice S1x64 ![0, 0] (m ((c : Thread nD τ).loc main_arg6)) slices_S3x64_S1x64_0_0) shapeCasts_S1x64_S64) shapeCasts_S64_S1x64 := by
  show StableHlo.after hostOps1 (W4 m ρ c) (Proc.devRef .tc main_v34) = _
  after_results_simp
  simp only [W4_arg6 m ρ c]
  rfl

set_option maxHeartbeats 4000000 in
theorem W5_v33 : W5 m ρ c (Proc.devRef .tc main_v33) = shapeCast S64x64 (extractStridedSlice S1x64x64 ![1, 0, 0] (m ((c : Thread nD τ).loc main_arg5)) slices_S3x64x64_S1x64x64_1_0_0) shapeCasts_S1x64x64_S64x64 := by
  show StableHlo.after hostOps1 (W4 m ρ c) (Proc.devRef .tc main_v33) = _
  after_results_simp
  simp only [W4_arg5 m ρ c]
  rfl

/-- The second region's output array is the middle stage over the first. -/
theorem out1 : W6 m ρ c (Proc.devRef .tc main_v35) = uNext (m ((c : Thread nD τ).loc main_arg1)) (u0 (m ((c : Thread nD τ).loc main_arg0)) (m ((c : Thread nD τ).loc main_arg1)) (m ((c : Thread nD τ).loc main_arg3)) (m ((c : Thread nD τ).loc main_arg4)) (m ((c : Thread nD τ).loc main_arg5))) (b6C (m ((c : Thread nD τ).loc main_arg6)) 0) (w5C (m ((c : Thread nD τ).loc main_arg5)) 1) := by
  refine (W6_arr m ρ c 4).trans ((final1 (V5 m ρ) c).trans ?_)
  unfold G1 uNext
  simp only [V5, W5_v29 m ρ c, W5_v15 m ρ c, W5_v34 m ρ c, W5_v33 m ρ c]
  refine congrArg mat2 (funext fun n => funext fun j => ?_)
  exact G1C_congr _ _ _ _ _ _ _ _ n n j (fun _ => rfl) (congrFun (col_of_vecN _) n) (b_slice0 _) (w_slice1 _)

end Cert.KFold

end
-- ==== Proof.KRegion2.lean ====
/-
  The third kernel region's output array, as one function of the arrays the region finds.

  The region runs over 50 grid points; point `t` reads rows `2000·t … 2000·t + 1999` of the aggregate and of the
  degree column, the whole bias row and the whole layer weight, and writes back rows `2000·t … 2000·t + 1999` of the
  output. A row of the output depends on the same row of the row-indexed inputs only (`G2C_congr`), so the block a
  point writes is that block of ONE whole-array function `G2` (`flushed2_eq`); the 50 blocks tile the array (the
  point covering row `r` is `r / 2000`), hence the array ends holding `G2` (`final2`).
-/
import proofs.«113083_j47880295415877_2_alg».proof.Proof.Gen.KernelIdeal.Frame
import proofs.«113083_j47880295415877_2_alg».proof.Proof.Spec
import proofs.«113083_j47880295415877_2_alg».proof.Proof.Pay1
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KRegion

open Cert.KernelIdeal Cert.KernelIdeal.Gen Cert.Spec

variable (V : (c : Dev nD) → (b : Ref sig .tc) → Buf (Elt Ideal) ((c : Thread nD τ).loc b))

theorem hz2 : (![0, 0] : Fin 2 → Nat) = fun _ => 0 := funext fun a => by fin_cases a <;> rfl

/-- Row `p` of activation, weight, degree factor depends on row `p` of the aggregate and of the degree column only. -/
theorem G2C_congr {M M' : ℕ} (a : Fin M → Fin 64 → EReal) (a' : Fin M' → Fin 64 → EReal) (d : Fin M → EReal)
    (d' : Fin M' → EReal) (b b' : Fin 64 → EReal) (w w' : Fin 64 → Fin 64 → EReal) (p : Fin M) (n : Fin M') (q : Fin 64)
    (ha : ∀ k, a p k = a' n k) (hd : d p = d' n) (hb : b = b') (hw : w = w') :
    G1C a d b w p q = G1C a' d' b' w' n q := by
  subst hb hw
  unfold G1C linC actC
  simp only [ha, hd]

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The region's array: activation of the aggregate, the layer weight, then the degree factor. -/
def G2 (c : Dev nD) : FVec Ideal S100000x64 .f32 :=
  mat2 (G1C (at2 (V c main_v45)) (col (V c main_v15)) (row (V c main_v50)) (at2 (V c main_v49)))

theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S2000x64) hz2, View.ld_unit_zero (S := S1x64) hz2,
    View.ld_unit_zero (S := S64x64) hz2, View.ld_unit_zero (S := S2000x1) hz2]
  funext y
  obtain ⟨p, q, rfl⟩ : ∃ (p : Fin 2000) (q : Fin 64), y = ix2 p q := ⟨y 0, y 1, eq_ix2 y⟩
  show k2_pay1 (F := Ideal) (iblk2 V c 1 t) (iblk2 V c 0 t) (iblk2 V c 2 t) (iblk2 V c 3 t) (iblk2 V c 1 t) (ix2 p q)
     = G2 V c (((cfg2.win 4).blk t).view.emb (ix2 p q))
  rw [Cert.Pay.k2_pay1_apply]
  obtain ⟨e00, e01, e10, e11, e20, e21, e30, e31, e40, e41⟩ := idx_facts2 t
  have hN : t.val < 50 := by have h1 := t.isLt; have h2 : cfg2.N = 50 := N_2; omega
  have hp : p.val < 2000 := p.isLt
  have hemb : ((cfg2.win 4).blk t).view.emb (ix2 p q) = ix2 (⟨t.val * 2000 + p.val, by omega⟩ : Fin 100000) q := by
    funext a; apply Fin.ext
    match a with
    | ⟨0, _⟩ => show win2_4.index t (0 : Fin 2) * 2000 + 1 * p.val = t.val * 2000 + p.val; rw [e40]; omega
    | ⟨1, _⟩ => show win2_4.index t (1 : Fin 2) * 64 + 1 * q.val = q.val; rw [e41]; omega
  rw [hemb]
  unfold G2
  rw [mat2_apply]
  show G1C (at2 (iblk2 V c 0 t)) (col (iblk2 V c 1 t)) (row (iblk2 V c 2 t)) (at2 (iblk2 V c 3 t)) p q = _
  refine G2C_congr _ _ _ _ _ _ _ _ p _ q (fun k => ?_) ?_ (funext fun k => ?_) (funext fun j => funext fun k => ?_)
  · unfold at2 iblk2
    rw [View.read_apply]
    show V c main_v45 (((cfg2.win 0).blk t).view.emb (ix2 p k)) = V c main_v45 (ix2 ⟨t.val * 2000 + p.val, by omega⟩ k)
    refine congrArg _ ?_
    funext a; apply Fin.ext
    match a with
    | ⟨0, _⟩ => show win2_0.index t (0 : Fin 2) * 2000 + 1 * p.val = t.val * 2000 + p.val; rw [e00]; omega
    | ⟨1, _⟩ => show win2_0.index t (1 : Fin 2) * 64 + 1 * k.val = k.val; rw [e01]; omega
  · unfold col iblk2
    rw [View.read_apply]
    show V c main_v15 (((cfg2.win 1).blk t).view.emb (ix2 p (0 : Fin 1))) = V c main_v15 (ix2 ⟨t.val * 2000 + p.val, by omega⟩ (0 : Fin 1))
    refine congrArg _ ?_
    funext a; apply Fin.ext
    match a with
    | ⟨0, _⟩ => show win2_1.index t (0 : Fin 2) * 2000 + 1 * p.val = t.val * 2000 + p.val; rw [e10]; omega
    | ⟨1, _⟩ => show win2_1.index t (1 : Fin 2) * 1 + 1 * 0 = 0; rw [e11]
  · unfold row iblk2
    rw [View.read_apply]
    show V c main_v50 (((cfg2.win 2).blk t).view.emb (ix2 (0 : Fin 1) k)) = V c main_v50 (ix2 (0 : Fin 1) k)
    refine congrArg _ ?_
    funext a; apply Fin.ext
    match a with
    | ⟨0, _⟩ => show win2_2.index t (0 : Fin 2) * 1 + 1 * 0 = 0; rw [e20]
    | ⟨1, _⟩ => show win2_2.index t (1 : Fin 2) * 64 + 1 * k.val = k.val; rw [e21]; omega
  · unfold at2 iblk2
    rw [View.read_apply]
    show V c main_v49 (((cfg2.win 3).blk t).view.emb (ix2 j k)) = V c main_v49 (ix2 j k)
    refine congrArg _ ?_
    funext a; apply Fin.ext
    match a with
    | ⟨0, _⟩ => show win2_3.index t (0 : Fin 2) * 64 + 1 * j.val = j.val; rw [e30]; omega
    | ⟨1, _⟩ => show win2_3.index t (1 : Fin 2) * 64 + 1 * k.val = k.val; rw [e31]; omega

theorem mem_blk2 (t : Fin cfg2.N) (i : S100000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v51).slice (win2_4.rect t)).set ↔ _
  rw [View.set_slice_whole, Rect.mem_set_unit]
  exact Iff.rfl

theorem final2 (c : Dev nD) : (dat2 V c).arrAt 4 cfg2.N = G2 V c :=
  (dat2 V c).arrAt_eq_of_cover 4 (G2 V c) (fun t _ => flushed2_eq V c t) fun i => by
    have hi0 : (i 0).val < 100000 := (i 0).isLt
    have hi1 : (i 1).val < 64 := (i 1).isLt
    have hN : cfg2.N = 50 := N_2
    let t : Fin cfg2.N := ⟨(i 0).val / 2000, by rw [hN]; omega⟩
    obtain ⟨e00, e01, e10, e11, e20, e21, e30, e31, e40, e41⟩ := idx_facts2 t
    refine ⟨t, flush2_4 t, ?_⟩
    rw [mem_blk2]
    intro a
    match a with
    | ⟨0, _⟩ => show win2_4.index t (0 : Fin 2) * 2000 ≤ (i 0).val ∧ (i 0).val < win2_4.index t (0 : Fin 2) * 2000 + 2000; rw [e40]; show (i 0).val / 2000 * 2000 ≤ (i 0).val ∧ (i 0).val < (i 0).val / 2000 * 2000 + 2000; omega
    | ⟨1, _⟩ => show win2_4.index t (1 : Fin 2) * 64 ≤ (i 1).val ∧ (i 1).val < win2_4.index t (1 : Fin 2) * 64 + 64; rw [e41]; omega

end Cert.KRegion
end
-- ==== Proof.KFold2.lean ====
/-
  The third kernel region's output in terms of the argument arrays: the middle stage once more, over the second
  region's output, with the second bias and the third layer's weight.
-/
import proofs.«113083_j47880295415877_2_alg».proof.Proof.KFold1
import proofs.«113083_j47880295415877_2_alg».proof.Proof.KRegion2
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KFold

open Cert.KernelIdeal Cert.KernelIdeal.Gen Cert.Spec Cert.KSpec Cert.KRegion Cert.KLayout

variable (m : (ℓ : Loc nD τ sig) → Buf (Elt Ideal) ℓ) (ρ : Dev nD → PrngReg) (c : Dev nD)

set_option maxHeartbeats 4000000 in
/-- The aggregate the region reads: the previous stage's rows gathered at the edge sources, added at the edge destinations. -/
theorem W7_v45 : W7 m ρ c (Proc.devRef .tc main_v45) = aggK (m ((c : Thread nD τ).loc main_arg1)) (uNext (m ((c : Thread nD τ).loc main_arg1)) (u0 (m ((c : Thread nD τ).loc main_arg0)) (m ((c : Thread nD τ).loc main_arg1)) (m ((c : Thread nD τ).loc main_arg3)) (m ((c : Thread nD τ).loc main_arg4)) (m ((c : Thread nD τ).loc main_arg5))) (b6C (m ((c : Thread nD τ).loc main_arg6)) 0) (w5C (m ((c : Thread nD τ).loc main_arg5)) 1)) := by
  show StableHlo.after hostOps2 (W6 m ρ c) (Proc.devRef .tc main_v45) = _
  after_results_simp
  simp only [W6_v3 m ρ c, W6_v6 m ρ c, out1 m ρ c]
  unfold aggK
  rfl

set_option maxHeartbeats 4000000 in
theorem W7_v50 : W7 m ρ c (Proc.devRef .tc main_v50) = shapeCast S1x64 (shapeCast S64 (extractStridedSlice S1x64 ![1, 0] (m ((c : Thread nD τ).loc main_arg6)) slices_S3x64_S1x64_1_0) shapeCasts_S1x64_S64) shapeCasts_S64_S1x64 := by
  show StableHlo.after hostOps2 (W6 m ρ c) (Proc.devRef .tc main_v50) = _
  after_results_simp
  simp only [W6_arg6 m ρ c]
  rfl

set_option maxHeartbeats 4000000 in
theorem W7_v49 : W7 m ρ c (Proc.devRef .tc main_v49) = shapeCast S64x64 (extractStridedSlice S1x64x64 ![2, 0, 0] (m ((c : Thread nD τ).loc main_arg5)) slices_S3x64x64_S1x64x64_2_0_0) shapeCasts_S1x64x64_S64x64 := by
  show StableHlo.after hostOps2 (W6 m ρ c) (Proc.devRef .tc main_v49) = _
  after_results_simp
  simp only [W6_arg5 m ρ c]
  rfl

/-- The third region's output array is the middle stage over the second. -/
theorem out2 : W8 m ρ c (Proc.devRef .tc main_v51) = uNext (m ((c : Thread nD τ).loc main_arg1)) (uNext (m ((c : Thread nD τ).loc main_arg1)) (u0 (m ((c : Thread nD τ).loc main_arg0)) (m ((c : Thread nD τ).loc main_arg1)) (m ((c : Thread nD τ).loc main_arg3)) (m ((c : Thread nD τ).loc main_arg4)) (m ((c : Thread nD τ).loc main_arg5))) (b6C (m ((c : Thread nD τ).loc main_arg6)) 0) (w5C (m ((c : Thread nD τ).loc main_arg5)) 1)) (b6C (m ((c : Thread nD τ).loc main_arg6)) 1) (w5C (m ((c : Thread nD τ).loc main_arg5)) 2) := by
  refine (W8_arr m ρ c 4).trans ((final2 (V7 m ρ) c).trans ?_)
  unfold G2 uNext
  simp only [V7, W7_v45 m ρ c, W7_v15 m ρ c, W7_v50 m ρ c, W7_v49 m ρ c]
  refine congrArg mat2 (funext fun n => funext fun j => ?_)
  exact G1C_congr _ _ _ _ _ _ _ _ n n j (fun _ => rfl) (congrFun (col_of_vecN _) n) (b_slice1 _) (w_slice2 _)

end Cert.KFold

end
-- ==== Proof.Pay3.lean ====
/-
  The activation kernel's stored value, read at an index, on the extended reals.

  The body scales the aggregate row `n` by that row's degree factor, adds the bias of column `j`, and takes the
  maximum with zero: at `(n, j)` it is `max (d n * a n j + b j) 0`, the activation `actC`.
-/
import proofs.«113083_j47880295415877_2_alg».proof.Proof.Gen.KernelIdeal.Skeleton
import proofs.«113083_j47880295415877_2_alg».proof.Proof.Spec
import proofs.«113083_j47880295415877_2_alg».proof.Proof.LibPlainDot
import proofs.«113083_j47880295415877_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.Pay

open Cert.KernelIdeal Cert.KernelIdeal.Gen Cert.Spec Cert.Lib Idealize.ShloMosaic Idealize.ShloMosaic.ValueIdx

/-- The activation kernel's stored value at `(p, q)` is `max (d p * a p q + b q) 0`. -/
theorem k3_pay1_apply (v0 : Vec Ideal S2000x1 .f32) (v2 : Vec Ideal S2000x64 .f32) (v6 : Vec Ideal S1x64 .f32)
    (p : Fin 2000) (q : Fin 64) :
    k3_pay1 (F := Ideal) v0 v2 v6 (ix2 p q) = actC (at2 v2) (col v0) (row v6) p q := by
  unfold k3_pay1
  simp only [shapeCast_self]
  rw [maximumf_apply, addf_apply, mulf_apply, broadcast_apply, broadcastTo_a1_ab_apply, broadcastTo_1b_ab_apply]
  rfl

end Cert.Pay

end
-- ==== Proof.KRegion3.lean ====
/-
  The fourth kernel region's output array, as one function of the arrays the region finds.

  The region runs over 50 grid points; point `t` reads rows `2000·t … 2000·t + 1999` of the aggregate and of the
  degree column and the whole bias row, and writes back rows `2000·t … 2000·t + 1999` of the output. A row of the
  output depends on the same row of the row-indexed inputs only (`G3C_congr`), so the block a point writes is that
  block of ONE whole-array function `G3` (`flushed3_eq`); the 50 blocks tile the array (the point covering row `r`
  is `r / 2000`), hence the array ends holding `G3` (`final3`).
-/
import proofs.«113083_j47880295415877_2_alg».proof.Proof.Gen.KernelIdeal.Frame
import proofs.«113083_j47880295415877_2_alg».proof.Proof.Spec
import proofs.«113083_j47880295415877_2_alg».proof.Proof.Pay3
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KRegion

open Cert.KernelIdeal Cert.KernelIdeal.Gen Cert.Spec

variable (V : (c : Dev nD) → (b : Ref sig .tc) → Buf (Elt Ideal) ((c : Thread nD τ).loc b))

theorem hz3 : (![0, 0] : Fin 2 → Nat) = fun _ => 0 := funext fun a => by fin_cases a <;> rfl

/-- Row `p` of the activation depends on row `p` of the aggregate and of the degree column only. -/
theorem G3C_congr {M M' : ℕ} (a : Fin M → Fin 64 → EReal) (a' : Fin M' → Fin 64 → EReal) (d : Fin M → EReal)
    (d' : Fin M' → EReal) (b b' : Fin 64 → EReal) (p : Fin M) (n : Fin M') (q : Fin 64)
    (ha : ∀ k, a p k = a' n k) (hd : d p = d' n) (hb : b = b') :
    actC a d b p q = actC a' d' b' n q := by
  subst hb
  unfold actC
  simp only [ha, hd]

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The region's array: the activation of the aggregate. -/
def G3 (c : Dev nD) : FVec Ideal S100000x64 .f32 :=
  mat2 (actC (at2 (V c main_v61)) (col (V c main_v15)) (row (V c main_v64)))

theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz3]
  simp only [View.ld_unit_zero (S := S2000x64) hz3, View.ld_unit_zero (S := S1x64) hz3,
    View.ld_unit_zero (S := S2000x1) hz3]
  funext y
  obtain ⟨p, q, rfl⟩ : ∃ (p : Fin 2000) (q : Fin 64), y = ix2 p q := ⟨y 0, y 1, eq_ix2 y⟩
  show k3_pay1 (F := Ideal) (iblk3 V c 1 t) (iblk3 V c 0 t) (iblk3 V c 2 t) (ix2 p q)
     = G3 V c (((cfg3.win 3).blk t).view.emb (ix2 p q))
  rw [Cert.Pay.k3_pay1_apply]
  obtain ⟨e00, e01, e10, e11, e20, e21, e30, e31⟩ := idx_facts3 t
  have hN : t.val < 50 := by have h1 := t.isLt; have h2 : cfg3.N = 50 := N_3; omega
  have hp : p.val < 2000 := p.isLt
  have hemb : ((cfg3.win 3).blk t).view.emb (ix2 p q) = ix2 (⟨t.val * 2000 + p.val, by omega⟩ : Fin 100000) q := by
    funext a; apply Fin.ext
    match a with
    | ⟨0, _⟩ => show win3_3.index t (0 : Fin 2) * 2000 + 1 * p.val = t.val * 2000 + p.val; rw [e30]; omega
    | ⟨1, _⟩ => show win3_3.index t (1 : Fin 2) * 64 + 1 * q.val = q.val; rw [e31]; omega
  rw [hemb]
  unfold G3
  rw [mat2_apply]
  refine G3C_congr _ _ _ _ _ _ p _ q (fun k => ?_) ?_ (funext fun k => ?_)
  · unfold at2 iblk3
    rw [View.read_apply]
    show V c main_v61 (((cfg3.win 0).blk t).view.emb (ix2 p k)) = V c main_v61 (ix2 ⟨t.val * 2000 + p.val, by omega⟩ k)
    refine congrArg _ ?_
    funext a; apply Fin.ext
    match a with
    | ⟨0, _⟩ => show win3_0.index t (0 : Fin 2) * 2000 + 1 * p.val = t.val * 2000 + p.val; rw [e00]; omega
    | ⟨1, _⟩ => show win3_0.index t (1 : Fin 2) * 64 + 1 * k.val = k.val; rw [e01]; omega
  · unfold col iblk3
    rw [View.read_apply]
    show V c main_v15 (((cfg3.win 1).blk t).view.emb (ix2 p (0 : Fin 1))) = V c main_v15 (ix2 ⟨t.val * 2000 + p.val, by omega⟩ (0 : Fin 1))
    refine congrArg _ ?_
    funext a; apply Fin.ext
    match a with
    | ⟨0, _⟩ => show win3_1.index t (0 : Fin 2) * 2000 + 1 * p.val = t.val * 2000 + p.val; rw [e10]; omega
    | ⟨1, _⟩ => show win3_1.index t (1 : Fin 2) * 1 + 1 * 0 = 0; rw [e11]
  · unfold row iblk3
    rw [View.read_apply]
    show V c main_v64 (((cfg3.win 2).blk t).view.emb (ix2 (0 : Fin 1) k)) = V c main_v64 (ix2 (0 : Fin 1) k)
    refine congrArg _ ?_
    funext a; apply Fin.ext
    match a with
    | ⟨0, _⟩ => show win3_2.index t (0 : Fin 2) * 1 + 1 * 0 = 0; rw [e20]
    | ⟨1, _⟩ => show win3_2.index t (1 : Fin 2) * 64 + 1 * k.val = k.val; rw [e21]; omega

theorem mem_blk3 (t : Fin cfg3.N) (i : S100000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v65).slice (win3_3.rect t)).set ↔ _
  rw [View.set_slice_whole, Rect.mem_set_unit]
  exact Iff.rfl

theorem final3 (c : Dev nD) : (dat3 V c).arrAt 3 cfg3.N = G3 V c :=
  (dat3 V c).arrAt_eq_of_cover 3 (G3 V c) (fun t _ => flushed3_eq V c t) fun i => by
    have hi0 : (i 0).val < 100000 := (i 0).isLt
    have hi1 : (i 1).val < 64 := (i 1).isLt
    have hN : cfg3.N = 50 := N_3
    let t : Fin cfg3.N := ⟨(i 0).val / 2000, by rw [hN]; omega⟩
    obtain ⟨e00, e01, e10, e11, e20, e21, e30, e31⟩ := idx_facts3 t
    refine ⟨t, flush3_3 t, ?_⟩
    rw [mem_blk3]
    intro a
    match a with
    | ⟨0, _⟩ => show win3_3.index t (0 : Fin 2) * 2000 ≤ (i 0).val ∧ (i 0).val < win3_3.index t (0 : Fin 2) * 2000 + 2000; rw [e30]; show (i 0).val / 2000 * 2000 ≤ (i 0).val ∧ (i 0).val < (i 0).val / 2000 * 2000 + 2000; omega
    | ⟨1, _⟩ => show win3_3.index t (1 : Fin 2) * 64 ≤ (i 1).val ∧ (i 1).val < win3_3.index t (1 : Fin 2) * 64 + 64; rw [e31]; omega

end Cert.KRegion
end
-- ==== Proof.KFold3.lean ====
/-
  The fourth kernel region's output in terms of the argument arrays: the last stage — aggregate, degree factor,
  third bias, activation — over the third region's output.
-/
import proofs.«113083_j47880295415877_2_alg».proof.Proof.KFold2
import proofs.«113083_j47880295415877_2_alg».proof.Proof.KRegion3
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KFold

open Cert.KernelIdeal Cert.KernelIdeal.Gen Cert.Spec Cert.KSpec Cert.KRegion Cert.KLayout

variable (m : (ℓ : Loc nD τ sig) → Buf (Elt Ideal) ℓ) (ρ : Dev nD → PrngReg) (c : Dev nD)

set_option maxHeartbeats 4000000 in
/-- The aggregate the region reads: the previous stage's rows gathered at the edge sources, added at the edge destinations. -/
theorem W9_v61 : W9 m ρ c (Proc.devRef .tc main_v61) = aggK (m ((c : Thread nD τ).loc main_arg1)) (uNext (m ((c : Thread nD τ).loc main_arg1)) (uNext (m ((c : Thread nD τ).loc main_arg1)) (u0 (m ((c : Thread nD τ).loc main_arg0)) (m ((c : Thread nD τ).loc main_arg1)) (m ((c : Thread nD τ).loc main_arg3)) (m ((c : Thread nD τ).loc main_arg4)) (m ((c : Thread nD τ).loc main_arg5))) (b6C (m ((c : Thread nD τ).loc main_arg6)) 0) (w5C (m ((c : Thread nD τ).loc main_arg5)) 1)) (b6C (m ((c : Thread nD τ).loc main_arg6)) 1) (w5C (m ((c : Thread nD τ).loc main_arg5)) 2)) := by
  show StableHlo.after hostOps3 (W8 m ρ c) (Proc.devRef .tc main_v61) = _
  after_results_simp
  simp only [W8_v3 m ρ c, W8_v6 m ρ c, out2 m ρ c]
  unfold aggK
  rfl

set_option maxHeartbeats 4000000 in
theorem W9_v64 : W9 m ρ c (Proc.devRef .tc main_v64) = shapeCast S1x64 (shapeCast S64 (extractStridedSlice S1x64 ![2, 0] (m ((c : Thread nD τ).loc main_arg6)) slices_S3x64_S1x64_2_0) shapeCasts_S1x64_S64) shapeCasts_S64_S1x64 := by
  show StableHlo.after hostOps3 (W8 m ρ c) (Proc.devRef .tc main_v64) = _
  after_results_simp
  simp only [W8_arg6 m ρ c]
  rfl

/-- The fourth region's output array is the last stage. -/
theorem out3 : W10 m ρ c (Proc.devRef .tc main_v65) = hLast (m ((c : Thread nD τ).loc main_arg1)) (uNext (m ((c : Thread nD τ).loc main_arg1)) (uNext (m ((c : Thread nD τ).loc main_arg1)) (u0 (m ((c : Thread nD τ).loc main_arg0)) (m ((c : Thread nD τ).loc main_arg1)) (m ((c : Thread nD τ).loc main_arg3)) (m ((c : Thread nD τ).loc main_arg4)) (m ((c : Thread nD τ).loc main_arg5))) (b6C (m ((c : Thread nD τ).loc main_arg6)) 0) (w5C (m ((c : Thread nD τ).loc main_arg5)) 1)) (b6C (m ((c : Thread nD τ).loc main_arg6)) 1) (w5C (m ((c : Thread nD τ).loc main_arg5)) 2)) (b6C (m ((c : Thread nD τ).loc main_arg6)) 2) := by
  refine (W10_arr m ρ c 3).trans ((final3 (V9 m ρ) c).trans ?_)
  unfold G3 hLast
  simp only [V9, W9_v61 m ρ c, W9_v15 m ρ c, W9_v64 m ρ c]
  refine congrArg mat2 (funext fun n => funext fun j => ?_)
  exact G3C_congr _ _ _ _ _ _ n n j (fun _ => rfl) (congrFun (col_of_vecN _) n) (b_slice2 _)

end Cert.KFold

end
-- ==== Proof.Pay4.lean ====
/-
  The head kernel's stored value, read at an index, on the extended reals.

  The body divides the pooled sums of row `r` by `max (c r) 1` (the pooled mean), applies the hidden layer
  `max ((Σ_l mean r l * w1 k l) + b1 k) 0` (a matrix product with the transposed weight into a zero accumulator,
  the bias row, the maximum with zero), and the output layer `(Σ_k hidden r k * w2 j k) + b2 j` (a second product
  into a zero accumulator, plus the bias row). The format changes on the way into the products are the identity on
  the extended reals.
-/
import proofs.«113083_j47880295415877_2_alg».proof.Proof.Gen.KernelIdeal.Skeleton
import proofs.«113083_j47880295415877_2_alg».proof.Proof.Spec
import proofs.«113083_j47880295415877_2_alg».proof.Proof.LibPlainDot
import proofs.«113083_j47880295415877_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.Pay

open Cert.KernelIdeal Cert.KernelIdeal.Gen Cert.Spec Cert.Lib Idealize.ShloMosaic Idealize.ShloMosaic.ValueIdx

/-- The dimension numbers of the `2000×64` by `64×64` product are the plain ones. -/
theorem k4_dot_hidden_eq_plain : dot_S2000x64_S64x64_S2000x64_1_0_0_1_n_n = DotDims.plain 2000 64 64 := rfl

/-- The dimension numbers of the `2000×64` by `64×3` product are the plain ones. -/
theorem k4_dot_out_eq_plain : dot_S2000x64_S64x3_S2000x3_1_0_0_1_n_n = DotDims.plain 2000 64 3 := rfl

/-- The stored value at `(p, q)` is the head `mlpC` of the pooled sums, the counts, and the two layers. -/
theorem k4_pay1_apply (v0 : Vec Ideal S2000x64 .f32) (v2 : Vec Ideal S2000x1 .f32) (v9 : Vec Ideal S64x64 .f32)
    (v13 : Vec Ideal S1x64 .f32) (v20 : Vec Ideal S3x64 .f32) (v24 : Vec Ideal S1x3 .f32) (p : Fin 2000) (q : Fin 3) :
    k4_pay1 (F := Ideal) v0 v2 v9 v13 v20 v24 (ix2 p q)
      = mlpC (at2 v0) (col v2) (at2 v9) (row v13) (at2 v20) (row v24) p q := by
  unfold k4_pay1
  simp only [shapeCast_self]
  rw [addf_apply, broadcastTo_1b_ab_apply, k4_dot_out_eq_plain, plain_matmul_zero_apply]
  refine congrArg (· + row v24 q) (Finset.sum_congr rfl fun k _ => ?_)
  rw [truncf_apply, transpose_ix2_apply, truncf_apply, maximumf_apply, broadcast_apply, addf_apply,
    broadcastTo_1b_ab_apply, k4_dot_hidden_eq_plain, plain_matmul_zero_apply]
  refine congrArg (· * at2 v20 q k) (congrArg (max · zeroW) (congrArg (· + row v13 k)
    (Finset.sum_congr rfl fun l _ => ?_)))
  rw [truncf_apply, transpose_ix2_apply, truncf_apply, divf_apply, broadcastTo_a1_ab_apply, maximumf_apply,
    broadcast_apply]
  rfl

end Cert.Pay

end
-- ==== Proof.KRegion4.lean ====
/-
  The last kernel region's output array, as one function of the arrays the region finds.

  The region has ONE grid point, and every window is its whole array: the point reads the pooled sums, the counts,
  the two layers' weights and bias rows, and writes back the whole output. So the block the point writes is the whole
  of ONE function `G4` of the arrays (`flushed4_eq`), and that one block covers the array, which therefore ends
  holding `G4` (`final4`). As in the other regions a row of the output depends on the same row of the row-indexed
  inputs only (`G4C_congr`).
-/
import proofs.«113083_j47880295415877_2_alg».proof.Proof.Gen.KernelIdeal.Frame
import proofs.«113083_j47880295415877_2_alg».proof.Proof.Spec
import proofs.«113083_j47880295415877_2_alg».proof.Proof.Pay4
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KRegion

open Cert.KernelIdeal Cert.KernelIdeal.Gen Cert.Spec

variable (V : (c : Dev nD) → (b : Ref sig .tc) → Buf (Elt Ideal) ((c : Thread nD τ).loc b))

theorem hz4 : (![0, 0] : Fin 2 → Nat) = fun _ => 0 := funext fun a => by fin_cases a <;> rfl

/-- Row `p` of the head depends on row `p` of the pooled sums and of the counts only. -/
theorem G4C_congr {M M' : ℕ} (g : Fin M → Fin 64 → EReal) (g' : Fin M' → Fin 64 → EReal) (cn : Fin M → EReal)
    (cn' : Fin M' → EReal) (w1 w1' : Fin 64 → Fin 64 → EReal) (b1 b1' : Fin 64 → EReal) (w2 w2' : Fin 3 → Fin 64 → EReal)
    (b2 b2' : Fin 3 → EReal) (p : Fin M) (n : Fin M') (q : Fin 3)
    (hg : ∀ l, g p l = g' n l) (hc : cn p = cn' n) (hw1 : w1 = w1') (hb1 : b1 = b1') (hw2 : w2 = w2') (hb2 : b2 = b2') :
    mlpC g cn w1 b1 w2 b2 p q = mlpC g' cn' w1' b1' w2' b2' n q := by
  subst hw1 hb1 hw2 hb2
  unfold mlpC
  simp only [hg, hc]

theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- The region's array: the head applied to the pooled sums and the counts. -/
def G4 (c : Dev nD) : FVec Ideal S2000x3 .f32 :=
  mat2 (mlpC (at2 (V c main_v68)) (col (V c main_v73)) (at2 (V c main_arg7)) (row (V c main_v74)) (at2 (V c main_arg9)) (row (V c main_v75)))

/-- Window 0 is its whole array: the one point's block of the pooled sums reads the array at the same index. -/
theorem blk4_0 (c : Dev nD) (t : Fin cfg4.N) (r : Fin 2000) (l : Fin 64) :
    iblk4 V c 0 t (ix2 r l) = V c main_v68 (ix2 r l) := by
  obtain ⟨e00, e01, e10, e11, e20, e21, e30, e31, e40, e41, e50, e51, e60, e61⟩ := idx_facts4 t
  unfold iblk4
  rw [View.read_apply]
  show V c main_v68 (((cfg4.win 0).blk t).view.emb (ix2 r l)) = V c main_v68 (ix2 r l)
  refine congrArg _ ?_
  funext a; apply Fin.ext
  match a with
  | ⟨0, _⟩ => show win4_0.index t (0 : Fin 2) * 2000 + 1 * r.val = r.val; rw [e00]; omega
  | ⟨1, _⟩ => show win4_0.index t (1 : Fin 2) * 64 + 1 * l.val = l.val; rw [e01]; omega

/-- Window 1 is its whole array: the one point's block of the counts reads the array at the same index. -/
theorem blk4_1 (c : Dev nD) (t : Fin cfg4.N) (r : Fin 2000)  :
    iblk4 V c 1 t (ix2 r (0 : Fin 1)) = V c main_v73 (ix2 r (0 : Fin 1)) := by
  obtain ⟨e00, e01, e10, e11, e20, e21, e30, e31, e40, e41, e50, e51, e60, e61⟩ := idx_facts4 t
  unfold iblk4
  rw [View.read_apply]
  show V c main_v73 (((cfg4.win 1).blk t).view.emb (ix2 r (0 : Fin 1))) = V c main_v73 (ix2 r (0 : Fin 1))
  refine congrArg _ ?_
  funext a; apply Fin.ext
  match a with
  | ⟨0, _⟩ => show win4_1.index t (0 : Fin 2) * 2000 + 1 * r.val = r.val; rw [e10]; omega
  | ⟨1, _⟩ => show win4_1.index t (1 : Fin 2) * 1 + 1 * 0 = 0; rw [e11]

/-- Window 2 is its whole array: the one point's block of the hidden layer's weight reads the array at the same index. -/
theorem blk4_2 (c : Dev nD) (t : Fin cfg4.N) (k : Fin 64) (l : Fin 64) :
    iblk4 V c 2 t (ix2 k l) = V c main_arg7 (ix2 k l) := by
  obtain ⟨e00, e01, e10, e11, e20, e21, e30, e31, e40, e41, e50, e51, e60, e61⟩ := idx_facts4 t
  unfold iblk4
  rw [View.read_apply]
  show V c main_arg7 (((cfg4.win 2).blk t).view.emb (ix2 k l)) = V c main_arg7 (ix2 k l)
  refine congrArg _ ?_
  funext a; apply Fin.ext
  match a with
  | ⟨0, _⟩ => show win4_2.index t (0 : Fin 2) * 64 + 1 * k.val = k.val; rw [e20]; omega
  | ⟨1, _⟩ => show win4_2.index t (1 : Fin 2) * 64 + 1 * l.val = l.val; rw [e21]; omega

/-- Window 3 is its whole array: the one point's block of the hidden layer's bias row reads the array at the same index. -/
theorem blk4_3 (c : Dev nD) (t : Fin cfg4.N)  (k : Fin 64) :
    iblk4 V c 3 t (ix2 (0 : Fin 1) k) = V c main_v74 (ix2 (0 : Fin 1) k) := by
  obtain ⟨e00, e01, e10, e11, e20, e21, e30, e31, e40, e41, e50, e51, e60, e61⟩ := idx_facts4 t
  unfold iblk4
  rw [View.read_apply]
  show V c main_v74 (((cfg4.win 3).blk t).view.emb (ix2 (0 : Fin 1) k)) = V c main_v74 (ix2 (0 : Fin 1) k)
  refine congrArg _ ?_
  funext a; apply Fin.ext
  match a with
  | ⟨0, _⟩ => show win4_3.index t (0 : Fin 2) * 1 + 1 * 0 = 0; rw [e30]
  | ⟨1, _⟩ => show win4_3.index t (1 : Fin 2) * 64 + 1 * k.val = k.val; rw [e31]; omega

/-- Window 4 is its whole array: the one point's block of the output layer's weight reads the array at the same index. -/
theorem blk4_4 (c : Dev nD) (t : Fin cfg4.N) (j : Fin 3) (k : Fin 64) :
    iblk4 V c 4 t (ix2 j k) = V c main_arg9 (ix2 j k) := by
  obtain ⟨e00, e01, e10, e11, e20, e21, e30, e31, e40, e41, e50, e51, e60, e61⟩ := idx_facts4 t
  unfold iblk4
  rw [View.read_apply]
  show V c main_arg9 (((cfg4.win 4).blk t).view.emb (ix2 j k)) = V c main_arg9 (ix2 j k)
  refine congrArg _ ?_
  funext a; apply Fin.ext
  match a with
  | ⟨0, _⟩ => show win4_4.index t (0 : Fin 2) * 3 + 1 * j.val = j.val; rw [e40]; omega
  | ⟨1, _⟩ => show win4_4.index t (1 : Fin 2) * 64 + 1 * k.val = k.val; rw [e41]; omega

/-- Window 5 is its whole array: the one point's block of the output layer's bias row reads the array at the same index. -/
theorem blk4_5 (c : Dev nD) (t : Fin cfg4.N)  (j : Fin 3) :
    iblk4 V c 5 t (ix2 (0 : Fin 1) j) = V c main_v75 (ix2 (0 : Fin 1) j) := by
  obtain ⟨e00, e01, e10, e11, e20, e21, e30, e31, e40, e41, e50, e51, e60, e61⟩ := idx_facts4 t
  unfold iblk4
  rw [View.read_apply]
  show V c main_v75 (((cfg4.win 5).blk t).view.emb (ix2 (0 : Fin 1) j)) = V c main_v75 (ix2 (0 : Fin 1) j)
  refine congrArg _ ?_
  funext a; apply Fin.ext
  match a with
  | ⟨0, _⟩ => show win4_5.index t (0 : Fin 2) * 1 + 1 * 0 = 0; rw [e50]
  | ⟨1, _⟩ => show win4_5.index t (1 : Fin 2) * 3 + 1 * j.val = j.val; rw [e51]; omega

theorem flushed4_eq (c : Dev nD) (t : Fin cfg4.N) :
    (dat4 V c).flushed 6 t = ((cfg4.win 6).blk t).view.read (Elt Ideal) (G4 V c) := by
  show (cfg4.win 6).cut (grid4.coords t) ((dat4 V c).after 6 t) = _
  rw [after4_6]
  unfold out4_6
  rw [View.canon_unit_zero hz4]
  simp only [View.ld_unit_zero (S := S2000x64) hz4, View.ld_unit_zero (S := S2000x1) hz4,
    View.ld_unit_zero (S := S64x64) hz4, View.ld_unit_zero (S := S1x64) hz4, View.ld_unit_zero (S := S3x64) hz4,
    View.ld_unit_zero (S := S1x3) hz4]
  funext y
  obtain ⟨p, q, rfl⟩ : ∃ (p : Fin 2000) (q : Fin 3), y = ix2 p q := ⟨y 0, y 1, eq_ix2 y⟩
  show k4_pay1 (F := Ideal) (iblk4 V c 0 t) (iblk4 V c 1 t) (iblk4 V c 2 t) (iblk4 V c 3 t) (iblk4 V c 4 t) (iblk4 V c 5 t) (ix2 p q)
     = G4 V c (((cfg4.win 6).blk t).view.emb (ix2 p q))
  rw [Cert.Pay.k4_pay1_apply]
  obtain ⟨e00, e01, e10, e11, e20, e21, e30, e31, e40, e41, e50, e51, e60, e61⟩ := idx_facts4 t
  have hemb : ((cfg4.win 6).blk t).view.emb (ix2 p q) = ix2 p q := by
    funext a; apply Fin.ext
    match a with
    | ⟨0, _⟩ => show win4_6.index t (0 : Fin 2) * 2000 + 1 * p.val = p.val; rw [e60]; omega
    | ⟨1, _⟩ => show win4_6.index t (1 : Fin 2) * 3 + 1 * q.val = q.val; rw [e61]; omega
  rw [hemb]
  unfold G4
  rw [mat2_apply]
  refine G4C_congr _ _ _ _ _ _ _ _ _ _ _ _ p _ q (fun l => ?_) ?_ (funext fun k => funext fun l => ?_) (funext fun k => ?_)
    (funext fun j => funext fun k => ?_) (funext fun j => ?_)
  · exact blk4_0 V c t p l
  · exact blk4_1 V c t p
  · exact blk4_2 V c t k l
  · exact blk4_3 V c t k
  · exact blk4_4 V c t j k
  · exact blk4_5 V c t j

theorem mem_blk4 (t : Fin cfg4.N) (i : S2000x3.Idx) :
    i ∈ ((cfg4.win 6).blk t).view.set ↔ ∀ a : Fin 2, win4_6.index t a * S2000x3.size a ≤ (i a).val ∧ (i a).val < win4_6.index t a * S2000x3.size a + S2000x3.size a := by
  show i ∈ ((View.whole main_v76).slice (win4_6.rect t)).set ↔ _
  rw [View.set_slice_whole, Rect.mem_set_unit]
  exact Iff.rfl

theorem final4 (c : Dev nD) : (dat4 V c).arrAt 6 cfg4.N = G4 V c :=
  (dat4 V c).arrAt_eq_of_cover 6 (G4 V c) (fun t _ => flushed4_eq V c t) fun i => by
    have hi0 : (i 0).val < 2000 := (i 0).isLt
    have hi1 : (i 1).val < 3 := (i 1).isLt
    have hN : cfg4.N = 1 := N_4
    let t : Fin cfg4.N := ⟨0, by rw [hN]; omega⟩
    obtain ⟨e00, e01, e10, e11, e20, e21, e30, e31, e40, e41, e50, e51, e60, e61⟩ := idx_facts4 t
    refine ⟨t, flush4_6 t, ?_⟩
    rw [mem_blk4]
    intro a
    match a with
    | ⟨0, _⟩ => show win4_6.index t (0 : Fin 2) * 2000 ≤ (i 0).val ∧ (i 0).val < win4_6.index t (0 : Fin 2) * 2000 + 2000; rw [e60]; omega
    | ⟨1, _⟩ => show win4_6.index t (1 : Fin 2) * 3 ≤ (i 1).val ∧ (i 1).val < win4_6.index t (1 : Fin 2) * 3 + 3; rw [e61]; omega

end Cert.KRegion
end
-- ==== Proof.KFold4.lean ====
/-
  The kernel program's result in terms of the argument arrays.

  After the fourth region the host adds the node features of each graph's nodes (the pooled sums) and counts them; the
  last region divides the sums by the counts (at least one), and applies the two layers of the head. With the four
  stages before it this is `kOut` of the argument arrays.
-/
import proofs.«113083_j47880295415877_2_alg».proof.Proof.KFold3
import proofs.«113083_j47880295415877_2_alg».proof.Proof.KRegion4
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KFold

open Cert.KernelIdeal Cert.KernelIdeal.Gen Cert.Spec Cert.KSpec Cert.KRegion Cert.KLayout

variable (m : (ℓ : Loc nD τ sig) → Buf (Elt Ideal) ℓ) (ρ : Dev nD → PrngReg) (c : Dev nD)

set_option maxHeartbeats 4000000 in
/-- The pooled sums of the last stage's rows. -/
theorem W11_v68 : W11 m ρ c (Proc.devRef .tc main_v68) = poolK (m ((c : Thread nD τ).loc main_arg2)) (hLast (m ((c : Thread nD τ).loc main_arg1)) (uNext (m ((c : Thread nD τ).loc main_arg1)) (uNext (m ((c : Thread nD τ).loc main_arg1)) (u0 (m ((c : Thread nD τ).loc main_arg0)) (m ((c : Thread nD τ).loc main_arg1)) (m ((c : Thread nD τ).loc main_arg3)) (m ((c : Thread nD τ).loc main_arg4)) (m ((c : Thread nD τ).loc main_arg5))) (b6C (m ((c : Thread nD τ).loc main_arg6)) 0) (w5C (m ((c : Thread nD τ).loc main_arg5)) 1)) (b6C (m ((c : Thread nD τ).loc main_arg6)) 1) (w5C (m ((c : Thread nD τ).loc main_arg5)) 2)) (b6C (m ((c : Thread nD τ).loc main_arg6)) 2)) := by
  show StableHlo.after hostOps4 (W10 m ρ c) (Proc.devRef .tc main_v68) = _
  after_results_simp
  simp only [W10_arg2 m ρ c, out3 m ρ c]
  unfold poolK
  rfl

set_option maxHeartbeats 4000000 in
/-- The node counts as a column. -/
theorem W11_v73 : W11 m ρ c (Proc.devRef .tc main_v73)
    = shapeCast S2000x1 (Cert.ReferenceIdeal.ReadP.val_main_v110 (F := Ideal) (m ((c : Thread nD τ).loc main_arg2))) shapeCasts_S2000_S2000x1 := by
  show StableHlo.after hostOps4 (W10 m ρ c) (Proc.devRef .tc main_v73) = _
  after_results_simp
  simp only [W10_arg2 m ρ c]
  rfl

set_option maxHeartbeats 4000000 in
theorem W11_v74 : W11 m ρ c (Proc.devRef .tc main_v74) = shapeCast S1x64 (m ((c : Thread nD τ).loc main_arg8)) shapeCasts_S64_S1x64 := by
  show StableHlo.after hostOps4 (W10 m ρ c) (Proc.devRef .tc main_v74) = _
  after_results_simp
  simp only [W10_arg8 m ρ c]
  rfl

set_option maxHeartbeats 4000000 in
theorem W11_v75 : W11 m ρ c (Proc.devRef .tc main_v75) = shapeCast S1x3 (m ((c : Thread nD τ).loc main_arg10)) shapeCasts_S3_S1x3 := by
  show StableHlo.after hostOps4 (W10 m ρ c) (Proc.devRef .tc main_v75) = _
  after_results_simp
  simp only [W10_arg10 m ρ c]
  rfl

/-- THE RESULT: the last region's output array is `kOut` of the argument arrays. -/
theorem out4 : W12 m ρ c (Proc.devRef .tc main_v76)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 6).trans ((final4 (V11 m ρ) c).trans ?_)
  unfold G4 kOut hK
  simp only [V11, W11_v68 m ρ c, W11_v73 m ρ c, W11_arg7 m ρ c, W11_v74 m ρ c, W11_arg9 m ρ c, W11_v75 m ρ c]
  refine congrArg mat2 (funext fun n => funext fun j => ?_)
  exact G4C_congr _ _ _ _ _ _ _ _ _ _ _ _ n n j (fun _ => rfl) (congrFun (col_of_vecG _) n) rfl (row_of_vec64 _) rfl (row_of_vec3 _)

end Cert.KFold

end
-- ==== Proof.RefRead.lean ====
/-
  The reference program's stages, read coordinate by coordinate.

  Each stage of the reference program is identified with the arithmetic of `Spec` over the stage before it:

  * the first product  `(x · ewᵀ + eb) · w₀ᵀ`                       (`v38_eq`);
  * a weighted aggregation of a stage's rows over the edges            (`v51_eq`, `v74_eq`, `v97_eq`): the index
    columns and the edge weights of the three layers are the same functions of the edge list under different names;
  * bias and activation  `max (a + b_l) 0`                             (`v57_eq`, `v80_eq`, `v103_eq`);
  * the product with the next layer's transposed weight  `h · w_lᵀ`    (`v61_eq`, `v84_eq`);
  * the pooled sums over the graphs                                    (`v106_eq`);
  * the head: pooled mean `g / max c 1`, hidden layer with `max · 0`, output layer  (`v126_eq`).

  A layer's weight `w_l` is the slice `l` of the stacked weights, reshaped to a matrix and transposed; the reshape's
  index arithmetic `(j·64 + k) / 64 % 64 = j`, `(j·64 + k) % 64 = k` is the only computation on indices. The float
  words for zero and one are kept as words and never evaluated.
-/
import proofs.«113083_j47880295415877_2_alg».proof.Proof.ReadP
import proofs.«113083_j47880295415877_2_alg».proof.Proof.Spec
import proofs.«113083_j47880295415877_2_alg».proof.Proof.KSpec
import Idealize.ShloMosaic.Lib.ValueIdx
import Idealize.ShloMosaic.PureOps.Ideal.Laws

noncomputable section

namespace Cert.RefRead

open Cert.KSpec Cert.Spec Cert.ReferenceIdeal Cert.ReferenceIdeal.ReadP Idealize.ShloMosaic Idealize.ShloMosaic.ValueIdx

variable (x0 : FVec Ideal S100000x4 .f32) (x1 : Edges) (x2 : IVec S100000 32) (x3 : FVec Ideal S64x4 .f32)
  (x4 : FVec Ideal S64 .f32) (x5 : FVec Ideal S3x64x64 .f32) (x6 : FVec Ideal S3x64 .f32) (x7 : FVec Ideal S64x64 .f32)
  (x8 : FVec Ideal S64 .f32) (x9 : FVec Ideal S3x64 .f32) (x10 : FVec Ideal S3 .f32)

/-- The first stage: the embedding times the first weight. -/
theorem v38_eq : at2 (val_main_v38 (F := Ideal) x0 x3 x4 x5) = linC (embC (at2 x0) (at2 x3) (vec x4)) (w5C x5 0) := by
  funext n j
  show val_main_v38 (F := Ideal) x0 x3 x4 x5 (ix2 n j)
    = ∑ k : Fin 64, ((∑ l : Fin 4, x0 (ix2 n l) * x3 (ix2 k l)) + x4 (ix1 k)) * x5 (ix3 0 j k)
  rw [val_main_v38_apply]
  refine Finset.sum_congr rfl fun k _ => ?_
  rw [val_main_v37_apply, val_main_v36_apply, val_main_v35_apply, val_main_v34_apply, val_main_v33_apply, val_main_v32_apply,
    val_main_v31_apply]
  have e1 : idx_main_v35 (idx_main_v36 (idx_main_v37 (ridx_main_v38 (ix2 n j) k))) = ix3 0 j k :=
    funext fun a => Fin.ext (by
      match a with
      | ⟨0, _⟩ => rfl
      | ⟨1, _⟩ => show (j.val * 64 + k.val) / 64 % 64 = j.val; omega
      | ⟨2, _⟩ => show (j.val * 64 + k.val) % 64 = k.val; omega)
  have e2 : idx_main_v32 (idx_main_v33 (lidx_main_v38 (ix2 n j) k)) = ix1 k :=
    funext fun a => Fin.ext (by match a with | ⟨0, _⟩ => rfl)
  rw [e1, e2]
  refine congrArg (fun s => (s + x4 (ix1 k)) * x5 (ix3 0 j k)) ?_
  refine Finset.sum_congr rfl fun l _ => ?_
  rw [val_main_v30_apply]
  have e3 : lidx_main_v31 (lidx_main_v38 (ix2 n j) k) l = ix2 n l :=
    funext fun a => Fin.ext (by match a with | ⟨0, _⟩ => rfl | ⟨1, _⟩ => rfl)
  have e4 : idx_main_v30 (ridx_main_v31 (lidx_main_v38 (ix2 n j) k) l) = ix2 k l :=
    funext fun a => Fin.ext (by match a with | ⟨0, _⟩ => rfl | ⟨1, _⟩ => rfl)
  rw [e3, e4]

theorem v51_eq : val_main_v51 (F := Ideal) x0 x1 x3 x4 x5 = aggN x1 (val_main_v38 (F := Ideal) x0 x3 x4 x5) := by
  unfold val_main_v51 val_main_v48 val_main_v45 aggN
  rfl

theorem v57_eq : at2 (val_main_v57 (F := Ideal) x0 x1 x3 x4 x5 x6) = actR (at2 (val_main_v51 (F := Ideal) x0 x1 x3 x4 x5)) (b6C x6 0) := by
  funext n j
  show val_main_v57 (F := Ideal) x0 x1 x3 x4 x5 x6 (ix2 n j)
    = max (val_main_v51 (F := Ideal) x0 x1 x3 x4 x5 (ix2 n j) + x6 (ix2 0 j)) zeroW
  rw [val_main_v57_apply, val_main_v56_apply, val_main_v55_apply, val_main_v54_apply, val_main_v53_apply,
    val_main_v52_apply, val_main_call1_v0_apply, val_main_call1_cst_apply]
  have e : idx_main_v52 (idx_main_v53 (idx_main_v54 (idx_main_v55 (ix2 n j)))) = ix2 0 j :=
    funext fun a => Fin.ext (by
      match a with
      | ⟨0, _⟩ => rfl
      | ⟨1, _⟩ => show j.val % 64 = j.val; omega)
  rw [e]
  rfl

theorem v61_eq : at2 (val_main_v61 (F := Ideal) x0 x1 x3 x4 x5 x6) = linC (at2 (val_main_v57 (F := Ideal) x0 x1 x3 x4 x5 x6)) (w5C x5 1) := by
  funext n j
  show val_main_v61 (F := Ideal) x0 x1 x3 x4 x5 x6 (ix2 n j)
    = ∑ k : Fin 64, val_main_v57 (F := Ideal) x0 x1 x3 x4 x5 x6 (ix2 n k) * x5 (ix3 1 j k)
  rw [val_main_v61_apply]
  refine Finset.sum_congr rfl fun k _ => ?_
  rw [val_main_v60_apply, val_main_v59_apply, val_main_v58_apply]
  have e1 : lidx_main_v61 (ix2 n j) k = ix2 n k :=
    funext fun a => Fin.ext (by match a with | ⟨0, _⟩ => rfl | ⟨1, _⟩ => rfl)
  have e2 : idx_main_v58 (idx_main_v59 (idx_main_v60 (ridx_main_v61 (ix2 n j) k))) = ix3 1 j k :=
    funext fun a => Fin.ext (by
      match a with
      | ⟨0, _⟩ => rfl
      | ⟨1, _⟩ => show (j.val * 64 + k.val) / 64 % 64 = j.val; omega
      | ⟨2, _⟩ => show (j.val * 64 + k.val) % 64 = k.val; omega)
  rw [e1, e2]

theorem v74_eq : val_main_v74 (F := Ideal) x0 x1 x3 x4 x5 x6 = aggN x1 (val_main_v61 (F := Ideal) x0 x1 x3 x4 x5 x6) := by
  unfold val_main_v74 val_main_v71 val_main_v68 aggN
  rfl

theorem v80_eq : at2 (val_main_v80 (F := Ideal) x0 x1 x3 x4 x5 x6) = actR (at2 (val_main_v74 (F := Ideal) x0 x1 x3 x4 x5 x6)) (b6C x6 1) := by
  funext n j
  show val_main_v80 (F := Ideal) x0 x1 x3 x4 x5 x6 (ix2 n j)
    = max (val_main_v74 (F := Ideal) x0 x1 x3 x4 x5 x6 (ix2 n j) + x6 (ix2 1 j)) zeroW
  rw [val_main_v80_apply, val_main_v79_apply, val_main_v78_apply, val_main_v77_apply, val_main_v76_apply,
    val_main_v75_apply, val_main_call2_v0_apply, val_main_call2_cst_apply]
  have e : idx_main_v75 (idx_main_v76 (idx_main_v77 (idx_main_v78 (ix2 n j)))) = ix2 1 j :=
    funext fun a => Fin.ext (by
      match a with
      | ⟨0, _⟩ => rfl
      | ⟨1, _⟩ => show j.val % 64 = j.val; omega)
  rw [e]
  rfl

theorem v84_eq : at2 (val_main_v84 (F := Ideal) x0 x1 x3 x4 x5 x6) = linC (at2 (val_main_v80 (F := Ideal) x0 x1 x3 x4 x5 x6)) (w5C x5 2) := by
  funext n j
  show val_main_v84 (F := Ideal) x0 x1 x3 x4 x5 x6 (ix2 n j)
    = ∑ k : Fin 64, val_main_v80 (F := Ideal) x0 x1 x3 x4 x5 x6 (ix2 n k) * x5 (ix3 2 j k)
  rw [val_main_v84_apply]
  refine Finset.sum_congr rfl fun k _ => ?_
  rw [val_main_v83_apply, val_main_v82_apply, val_main_v81_apply]
  have e1 : lidx_main_v84 (ix2 n j) k = ix2 n k :=
    funext fun a => Fin.ext (by match a with | ⟨0, _⟩ => rfl | ⟨1, _⟩ => rfl)
  have e2 : idx_main_v81 (idx_main_v82 (idx_main_v83 (ridx_main_v84 (ix2 n j) k))) = ix3 2 j k :=
    funext fun a => Fin.ext (by
      match a with
      | ⟨0, _⟩ => rfl
      | ⟨1, _⟩ => show (j.val * 64 + k.val) / 64 % 64 = j.val; omega
      | ⟨2, _⟩ => show (j.val * 64 + k.val) % 64 = k.val; omega)
  rw [e1, e2]

theorem v97_eq : val_main_v97 (F := Ideal) x0 x1 x3 x4 x5 x6 = aggN x1 (val_main_v84 (F := Ideal) x0 x1 x3 x4 x5 x6) := by
  unfold val_main_v97 val_main_v94 val_main_v91 aggN
  rfl

theorem v103_eq : at2 (val_main_v103 (F := Ideal) x0 x1 x3 x4 x5 x6) = actR (at2 (val_main_v97 (F := Ideal) x0 x1 x3 x4 x5 x6)) (b6C x6 2) := by
  funext n j
  show val_main_v103 (F := Ideal) x0 x1 x3 x4 x5 x6 (ix2 n j)
    = max (val_main_v97 (F := Ideal) x0 x1 x3 x4 x5 x6 (ix2 n j) + x6 (ix2 2 j)) zeroW
  rw [val_main_v103_apply, val_main_v102_apply, val_main_v101_apply, val_main_v100_apply, val_main_v99_apply,
    val_main_v98_apply, val_main_call3_v0_apply, val_main_call3_cst_apply]
  have e : idx_main_v98 (idx_main_v99 (idx_main_v100 (idx_main_v101 (ix2 n j)))) = ix2 2 j :=
    funext fun a => Fin.ext (by
      match a with
      | ⟨0, _⟩ => rfl
      | ⟨1, _⟩ => show j.val % 64 = j.val; omega)
  rw [e]
  rfl

theorem v106_eq : val_main_v106 (F := Ideal) x0 x1 x2 x3 x4 x5 x6 = poolK x2 (val_main_v103 (F := Ideal) x0 x1 x3 x4 x5 x6) := by
  unfold val_main_v106 poolK
  rfl

/-- The pooled mean at a coordinate: the pooled sum over the larger of the count and one. -/
theorem v115_at (r : Fin 2000) (l : Fin 64) :
    val_main_v115 (F := Ideal) x0 x1 x2 x3 x4 x5 x6 (ix2 r l)
      = Ideal.div (val_main_v106 (F := Ideal) x0 x1 x2 x3 x4 x5 x6 (ix2 r l)) (max (val_main_v110 (F := Ideal) x2 (ix1 r)) oneW) := by
  rw [val_main_v115_apply, val_main_v114_apply, val_main_v113_apply, val_main_v112_apply, val_main_v111_apply,
    val_main_cst_18_apply]
  have e : idx_main_v113 (idx_main_v114 (ix2 r l)) = ix1 r :=
    funext fun a => Fin.ext (by match a with | ⟨0, _⟩ => rfl)
  rw [e]
  rfl

/-- The hidden layer's product at a coordinate. -/
theorem v117_at (r : Fin 2000) (k : Fin 64) :
    val_main_v117 (F := Ideal) x0 x1 x2 x3 x4 x5 x6 x7 (ix2 r k)
      = ∑ l : Fin 64, val_main_v115 (F := Ideal) x0 x1 x2 x3 x4 x5 x6 (ix2 r l) * x7 (ix2 k l) := by
  rw [val_main_v117_apply]
  refine Finset.sum_congr rfl fun l _ => ?_
  rw [val_main_v116_apply]
  have e1 : lidx_main_v117 (ix2 r k) l = ix2 r l :=
    funext fun a => Fin.ext (by match a with | ⟨0, _⟩ => rfl | ⟨1, _⟩ => rfl)
  have e2 : idx_main_v116 (ridx_main_v117 (ix2 r k) l) = ix2 k l :=
    funext fun a => Fin.ext (by match a with | ⟨0, _⟩ => rfl | ⟨1, _⟩ => rfl)
  rw [e1, e2]

/-- The hidden layer at a coordinate. -/
theorem v121_at (r : Fin 2000) (k : Fin 64) :
    val_main_v121 (F := Ideal) x0 x1 x2 x3 x4 x5 x6 x7 x8 (ix2 r k)
      = max (val_main_v117 (F := Ideal) x0 x1 x2 x3 x4 x5 x6 x7 (ix2 r k) + x8 (ix1 k)) zeroW := by
  rw [val_main_v121_apply, val_main_v120_apply, val_main_v119_apply, val_main_v118_apply, val_main_call4_v0_apply,
    val_main_call4_cst_apply]
  have e : idx_main_v118 (idx_main_v119 (ix2 r k)) = ix1 k :=
    funext fun a => Fin.ext (by match a with | ⟨0, _⟩ => rfl)
  rw [e]
  rfl

/-- The output layer at a coordinate. -/
theorem v126_at (r : Fin 2000) (j : Fin 3) :
    val_main_v126 (F := Ideal) x0 x1 x2 x3 x4 x5 x6 x7 x8 x9 x10 (ix2 r j)
      = (∑ k : Fin 64, val_main_v121 (F := Ideal) x0 x1 x2 x3 x4 x5 x6 x7 x8 (ix2 r k) * x9 (ix2 j k)) + x10 (ix1 j) := by
  rw [val_main_v126_apply, val_main_v125_apply, val_main_v124_apply, val_main_v123_apply]
  have e : idx_main_v124 (idx_main_v125 (ix2 r j)) = ix1 j :=
    funext fun a => Fin.ext (by match a with | ⟨0, _⟩ => rfl)
  rw [e]
  refine congrArg (fun s : EReal => s + x10 (ix1 j)) ?_
  refine Finset.sum_congr rfl fun k _ => ?_
  rw [val_main_v122_apply]
  have e1 : lidx_main_v123 (ix2 r j) k = ix2 r k :=
    funext fun a => Fin.ext (by match a with | ⟨0, _⟩ => rfl | ⟨1, _⟩ => rfl)
  have e2 : idx_main_v122 (ridx_main_v123 (ix2 r j) k) = ix2 j k :=
    funext fun a => Fin.ext (by match a with | ⟨0, _⟩ => rfl | ⟨1, _⟩ => rfl)
  rw [e1, e2]

/-- The head: pooled mean, hidden layer, output layer. -/
theorem v126_eq : val_main_v126 (F := Ideal) x0 x1 x2 x3 x4 x5 x6 x7 x8 x9 x10
    = mat2 (mlpC (at2 (val_main_v106 (F := Ideal) x0 x1 x2 x3 x4 x5 x6)) (vec (val_main_v110 (F := Ideal) x2)) (at2 x7) (vec x8) (at2 x9) (vec x10)) := by
  funext i
  obtain ⟨r, j, rfl⟩ : ∃ (r : Fin 2000) (j : Fin 3), i = ix2 r j := ⟨i 0, i 1, eq_ix2 i⟩
  rw [v126_at]
  show _ = (∑ k : Fin 64, max ((∑ l : Fin 64, Ideal.div (val_main_v106 (F := Ideal) x0 x1 x2 x3 x4 x5 x6 (ix2 r l))
      (max (val_main_v110 (F := Ideal) x2 (ix1 r)) oneW) * x7 (ix2 k l)) + x8 (ix1 k)) zeroW * x9 (ix2 j k)) + x10 (ix1 j)
  refine congrArg (fun s : EReal => s + x10 (ix1 j)) ?_
  refine Finset.sum_congr rfl fun k _ => ?_
  rw [v121_at, v117_at]
  refine congrArg (fun s : EReal => max (s + x8 (ix1 k)) zeroW * x9 (ix2 j k)) ?_
  refine Finset.sum_congr rfl fun l _ => ?_
  rw [v115_at]

end Cert.RefRead

end
-- ==== Proof.LibRowGather.lean ====
/-
  The gather of WHOLE ROWS of a matrix, read at an index.

  For a matrix `x : [N, C]` and an integer column `idx : [R, 1]`, the gather with offset axes `[1]`, collapsed slice
  axes `[0]`, start index map `[0]`, index vector axis `1` and slice sizes `[1, C]` is the matrix `[R, C]` whose
  element `(r, c)` is `x` at row `idx[r, 0]` — read as a signed integer and clamped into `[0, N − 1]`, as a gather
  clamps every start index so that the slice fits — and column `c`. The statement is general in the extents `N`, `R`,
  `C`, in the index width `w` and in the element type, and is meant to be reused: `rowGather_apply` for the dimension
  numbers written out (`rowGatherDims`), `rowGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of whole rows: operand `[N, C]`, start indices `[R, 1]` (one row number per
    result row, on the index vector's axis `1`), result `[R, C]`; operand axis `0` is collapsed and is the one the
    start index addresses, operand axis `1` is the result's offset axis `1`, read whole (slice sizes `[1, C]`). Their
    conditions `wf` are decidable on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. On operand axis `0` (collapsed, in the start index map) the operand index is the clamped start, with
    no batching and no offset part; on operand axis `1` (the offset axis, not in the start index map) the start is `0`
    and the index is the result's column. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowGatherDims N R C wf).start (ix2 r c) idx 0 + (rowGatherDims N R C wf).batchCoord (ix2 r c) 0
        + (rowGatherDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r c) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r c) idx 1 + (rowGatherDims N R C wf).batchCoord (ix2 r c) 1
        + (rowGatherDims N R C wf).offCoord (ix2 r c) 1 = _
    rw [GatherDims.batchCoord_eq_zero _ _ _ List.not_mem_nil]
    have hst : (rowGatherDims N R C wf).start (ix2 r c) idx 1 = 0 := by
      unfold GatherDims.start
      rw [dif_neg (fun h => Nat.one_ne_zero (congrArg Fin.val (List.mem_singleton.mp h)))]
    have hmem : (1 : Fin 2) ∈ (rowGatherDims N R C wf).sKept :=
      (GatherDims.mem_sKept _ _).mpr ⟨fun h => Nat.one_ne_zero (congrArg Fin.val (List.mem_singleton.mp h)), List.not_mem_nil⟩
    have hoff : (rowGatherDims N R C wf).offCoord (ix2 r c) 1 = c.val := by
      unfold GatherDims.offCoord
      rw [dif_pos hmem]
      rfl
    rw [hst, hoff]
    simp only [Nat.add_zero, Nat.zero_add]

/-- The same for ANY record of gather dimension numbers over those three shapes whose fields are the row gather's (for a
    record given by its literal fields the seven equations hold by `rfl`). -/
theorem rowGather_apply' {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 (⟨min (idx (ix2 r (0 : Fin 1))).toInt.toNat (N - 1), by omega⟩ : Fin N) c) := by
  obtain ⟨od, cd, ob, sb, sm, iv, ss, wf⟩ := d
  simp only at h1 h2 h3 h4 h5 h6 h7
  subst h1 h2 h3 h4 h5 h6 h7
  exact rowGather_apply hN wf x idx r c

end Cert.Lib
-- ==== Proof.LibTakeGather.lean ====
/-
  The gather of SINGLE ENTRIES of a vector, read at an index.

  For a vector `x : [N]` and an integer column `idx : [R, 1]`, the gather with no offset axis, collapsed slice axes
  `[0]`, start index map `[0]`, index vector axis `1` and slice sizes `[1]` is the vector `[R]` whose element `e` is
  `x` at entry `idx[e, 0]` — read as a signed integer and clamped into `[0, N − 1]`, as a gather clamps every start
  index so that the slice fits. The statement is general in the extents `N`, `R`, in the index width `w` and in the
  element type, and is meant to be reused: `takeGather_apply` for the dimension numbers written out
  (`takeGatherDims`), `takeGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of single entries of a vector: operand `[N]`, start indices `[R, 1]` (one entry
    number per result entry, on the index vector's axis `1`), result `[R]`; the operand's one axis is collapsed and is
    the one the start index addresses (slice sizes `[1]`), and there is no offset axis. Their conditions `wf` are
    decidable on literal shapes. -/
abbrev takeGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at entry `idx[e, 0]`, read signed and clamped into `[0, N − 1]`. On the
    operand's one axis (collapsed, in the start index map) the operand index is the clamped start, with no batching and
    no offset part. -/
theorem takeGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (takeGatherDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (takeGatherDims N R wf).start (ix1 e) idx 0 + (takeGatherDims N R wf).batchCoord (ix1 e) 0
      + (takeGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeGatherDims N R wf).startIndexMap from List.mem_singleton.mpr rfl)]
  have hsi : (takeGatherDims N R wf).siIdx (ix1 e) ⟨List.idxOf (0 : Fin 1) (takeGatherDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same for ANY record of gather dimension numbers over those three shapes whose fields are the entry gather's (for
    a record given by its literal fields the seven equations hold by `rfl`). -/
theorem takeGather_apply' {α : Type} {N R w : Nat} (hN : 0 < N)
    (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (e : Fin R) :
    Host.gather d x idx (ix1 e)
      = x (ix1 (⟨min (idx (ix2 e (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact takeGather_apply hN wf x idx e

end Cert.Lib
-- ==== Proof.LibRowScatter.lean ====
/-
  The scatter of WHOLE ROWS into a matrix: where an update element lands.

  For an operand `[N, C]`, an integer column `idx : [R, 1]` and updates `[R, C]`, the scatter with update window
  axes `[1]`, inserted window axes `[0]`, scatter-dims-to-operand-dims map `[0]` and index vector axis `1` sends
  the update element `(e, c)` to the operand element `(idx[e, 0], c)`: the row is the start index, read as a SIGNED
  integer and NOT clamped, the column is the update's own column. When the row is outside `[0, N)` the update is
  dropped. So `resultIdx? (e, c) idx = some i` holds exactly when `idx[e, 0]`, read signed, is `i`'s row and
  `c` is `i`'s column. The statements are general in the extents `N`, `R`, `C` and in the index width `w`, and are
  meant to be reused: the unprimed ones for the dimension numbers written out (`rowScatterDims`), the primed ones for
  ANY record of dimension numbers with those four fields.
-/
import Idealize.ShloMosaic.PureOps.Ideal
import Idealize.ShloMosaic.Lib.ValueIdx

namespace Cert.Lib

open Idealize.ShloMosaic Idealize.ShloMosaic.ValueIdx

/-- The dimension numbers of a scatter of whole rows: operand `[N, C]`, scatter indices `[R, 1]` (one row number per
    update row, on the index vector's axis `1`), updates `[R, C]`; operand axis `0` is the inserted window axis and
    the one the start index addresses, the updates' axis `1` is the window axis and goes to operand axis `1`. Their
    conditions `wf` are decidable on literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On operand axis `0` (in the scatter-dims-to-operand-dims map) the window of update `(e, c)` starts at
    `idx[e, 0]`, read signed. -/
theorem rowScatter_start_zero {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatterDims N R C wf).start (ix2 e c) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis `1` (not in the map) the window starts at `0`. -/
theorem rowScatter_start_one {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatterDims N R C wf).start (ix2 e c) idx 1 = 0 := by
  unfold ScatterDims.start
  rw [dif_neg (fun h => Nat.one_ne_zero (congrArg Fin.val (List.mem_singleton.mp h)))]

/-- An operand axis is kept (receives a window axis of the updates) exactly when it is not an inserted window axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- On operand axis `0` (an inserted window axis) the window coordinate is `0`. -/
theorem rowScatter_window_zero {N R C : Nat}
    (wf : ScatterDims.WF ⟨2, ![N, C]⟩ ⟨2, ![R, 1]⟩ ⟨2, ![R, C]⟩ [1] [0] [0] 1) (e : Fin R) (c : Fin C) :
    (rowScatterDims N R C wf).window (ix2 e c) 0 = 0 := by
  unfold ScatterDims.window
  rw [dif_neg (fun h => (scatter_mem_sKept _ _).mp h (List.mem_singleton.mpr rfl))]

/-- On operand axis `1` (the kept axis) the window coordinate is the update's column. -/
theorem rowScatter_window_one {N R C : Nat}
    (wf : ScatterDims.WF ⟨2, ![N, C]⟩ ⟨2, ![R, 1]⟩ ⟨2, ![R, C]⟩ [1] [0] [0] 1) (e : Fin R) (c : Fin C) :
    (rowScatterDims N R C wf).window (ix2 e c) 1 = c.val := by
  unfold ScatterDims.window
  rw [dif_pos ((scatter_mem_sKept _ _).mpr
    (fun h => Nat.one_ne_zero (congrArg Fin.val (List.mem_singleton.mp h))))]
  rfl

/-- WHERE AN UPDATE LANDS: if update `(e, c)` lands on the operand element `i`, then `idx[e, 0]`, read signed, is
    `i`'s row (so it lies in `[0, N)`) and `c` is `i`'s column. -/
theorem rowScatter_resultIdx_some {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N R C wf).resultIdx? (ix2 e c) idx = some i) :
    (idx (ix2 e (0 : Fin 1))).toInt = ((i 0).val : Int) ∧ (i 1).val = c.val := by
  unfold ScatterDims.resultIdx? at h
  split at h
  · rename_i hr
    have hi := Option.some.inj h
    subst hi
    have h0 := hr 0
    rw [rowScatter_start_zero, rowScatter_window_zero] at h0
    refine ⟨?_, ?_⟩
    · show _ = (((((rowScatterDims N R C wf).start (ix2 e c) idx 0
          + ((rowScatterDims N R C wf).window (ix2 e c) 0 : Nat)).toNat : Nat)) : Int)
      rw [rowScatter_start_zero, rowScatter_window_zero]
      omega
    · show ((rowScatterDims N R C wf).start (ix2 e c) idx 1
          + ((rowScatterDims N R C wf).window (ix2 e c) 1 : Nat)).toNat = c.val
      rw [rowScatter_start_one, rowScatter_window_one]
      omega
  · exact absurd h (by simp)

/-- The converse: when `idx[e, 0]`, read signed, is the row `n` of the operand, update `(e, c)` lands on `(n, c)`. -/
theorem rowScatter_resultIdx_of_eq {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (n : Fin N)
    (h : (idx (ix2 e (0 : Fin 1))).toInt = (n.val : Int)) :
    (rowScatterDims N R C wf).resultIdx? (ix2 e c) idx = some (ix2 n c) := by
  have hr : ∀ a, 0 ≤ (rowScatterDims N R C wf).start (ix2 e c) idx a + (rowScatterDims N R C wf).window (ix2 e c) a
      ∧ (rowScatterDims N R C wf).start (ix2 e c) idx a + (rowScatterDims N R C wf).window (ix2 e c) a
        < (⟨2, ![N, C]⟩ : Shape).size a := by
    intro a
    match a with
    | ⟨0, _⟩ =>
      show 0 ≤ (rowScatterDims N R C wf).start (ix2 e c) idx 0 + ((rowScatterDims N R C wf).window (ix2 e c) 0 : Nat)
        ∧ (rowScatterDims N R C wf).start (ix2 e c) idx 0 + ((rowScatterDims N R C wf).window (ix2 e c) 0 : Nat) < (N : Int)
      rw [rowScatter_start_zero, rowScatter_window_zero, h]
      have := n.isLt
      omega
    | ⟨1, _⟩ =>
      show 0 ≤ (rowScatterDims N R C wf).start (ix2 e c) idx 1 + ((rowScatterDims N R C wf).window (ix2 e c) 1 : Nat)
        ∧ (rowScatterDims N R C wf).start (ix2 e c) idx 1 + ((rowScatterDims N R C wf).window (ix2 e c) 1 : Nat) < (C : Int)
      rw [rowScatter_start_one, rowScatter_window_one]
      have := c.isLt
      omega
  unfold ScatterDims.resultIdx?
  rw [dif_pos hr]
  refine congrArg some ?_
  funext a
  refine Fin.ext ?_
  match a with
  | ⟨0, _⟩ =>
    show ((rowScatterDims N R C wf).start (ix2 e c) idx 0
        + ((rowScatterDims N R C wf).window (ix2 e c) 0 : Nat)).toNat = n.val
    rw [rowScatter_start_zero, rowScatter_window_zero, h]
    omega
  | ⟨1, _⟩ =>
    show ((rowScatterDims N R C wf).start (ix2 e c) idx 1
        + ((rowScatterDims N R C wf).window (ix2 e c) 1 : Nat)).toNat = c.val
    rw [rowScatter_start_one, rowScatter_window_one]
    omega

/-- `rowScatter_resultIdx_some` for ANY record of scatter dimension numbers over those three shapes whose fields are the
    row scatter's (for a record given by its literal fields the four equations hold by `rfl`). -/
theorem rowScatter_resultIdx_some' {N R C w : Nat}
    (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (idx : IVec ⟨2, ![R, 1]⟩ w) (e : Fin R) (c : Fin C) (i : (⟨2, ![N, C]⟩ : Shape).Idx)
    (h : d.resultIdx? (ix2 e c) idx = some i) :
    (idx (ix2 e (0 : Fin 1))).toInt = ((i 0).val : Int) ∧ (i 1).val = c.val := by
  obtain ⟨uw, iw, sd, iv, wf⟩ := d
  simp only at h1 h2 h3 h4
  subst h1 h2 h3 h4
  exact rowScatter_resultIdx_some wf idx e c i h

/-- `rowScatter_resultIdx_of_eq` for ANY record of scatter dimension numbers with the row scatter's four fields. -/
theorem rowScatter_resultIdx_of_eq' {N R C w : Nat}
    (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (idx : IVec ⟨2, ![R, 1]⟩ w) (e : Fin R) (c : Fin C) (n : Fin N)
    (h : (idx (ix2 e (0 : Fin 1))).toInt = (n.val : Int)) :
    d.resultIdx? (ix2 e c) idx = some (ix2 n c) := by
  obtain ⟨uw, iw, sd, iv, wf⟩ := d
  simp only at h1 h2 h3 h4
  subst h1 h2 h3 h4
  exact rowScatter_resultIdx_of_eq wf idx e c n h

end Cert.Lib
-- ==== Proof.Layer.lean ====
/-
  The law that joins the plain and the weighted aggregation.

  Every edge `e` carries the weight `d[s_e] · d[t_e]`, the product of the degree factors of its two ends. An edge that
  is added into node `n` has `t_e = n`, so the factor `d[n]` is common to every term of node `n`'s sum and can be taken
  out of it:  `d[n] · Σ_{e → n} (t[s_e, j] · d[s_e]) = Σ_{e → n} t[s_e, j] · (d[s_e] · d[t_e])`.
  The degree factor is a nonnegative REAL number (the reciprocal square root of a positive degree, or zero), and a
  nonnegative real distributes over any sum of extended reals, finite or not.
-/
import proofs.«113083_j47880295415877_2_alg».proof.Proof.KSpec
import proofs.«113083_j47880295415877_2_alg».proof.Proof.LibRowGather
import proofs.«113083_j47880295415877_2_alg».proof.Proof.LibTakeGather
import proofs.«113083_j47880295415877_2_alg».proof.Proof.LibRowScatter
import Idealize.ShloMosaic.Lib.ValueIdx
import Idealize.ShloMosaic.PureOps.Ideal.Laws

noncomputable section

namespace Cert.Layer

open Cert.KSpec Cert.Spec Cert.ReferenceIdeal Cert.ReferenceIdeal.ReadP Idealize.ShloMosaic Idealize.ShloMosaic.ValueIdx

/-- The degree factor of a node is a nonnegative real: where the degree is positive it is `1 / √deg` (and `0` at an
    infinite degree), elsewhere it is `0`. -/
theorem dinvC_nonneg_real (x1 : Edges) (n : Fin 100000) : ∃ r : ℝ, 0 ≤ r ∧ dinvC x1 n = (r : EReal) := by
  have hz : val_main_call0_v1 (F := Ideal) (ix1 n) = (0 : EReal) := by
    rw [val_main_call0_v1_apply, val_main_call0_v0_apply, val_main_cst_2_apply]
    exact Ideal.ofBits_zero_f32
  have hz11 : val_main_v11 (F := Ideal) (ix1 n) = (0 : EReal) := by
    rw [val_main_v11_apply, val_main_cst_1_apply]
    exact Ideal.ofBits_zero_f32
  unfold dinvC
  rw [val_main_v14_apply, val_main_v12_apply, val_main_v13_apply, hz, hz11]
  generalize val_main_v10 (F := Ideal) x1 (ix1 n) = deg
  show ∃ r : ℝ, 0 ≤ r ∧ Scalar.select (Ideal.cmp .ogt deg 0) (Ideal.rsqrt deg) 0 = (r : EReal)
  by_cases h : (0 : EReal) < deg
  · have hc : Ideal.cmp .ogt deg 0 = 1#1 := by
      show BitVec.ofBool (decide ((0 : EReal) < deg)) = 1#1
      rw [decide_eq_true h]; rfl
    rw [hc, select_one]
    induction deg using EReal.rec with
    | bot => exact absurd h (by simp)
    | top => exact ⟨0, le_rfl, by simp⟩
    | coe r =>
      have hr : 0 < r := by exact_mod_cast h
      refine ⟨(Real.sqrt r)⁻¹, inv_nonneg.mpr (Real.sqrt_nonneg r), ?_⟩
      rw [Ideal.rsqrt_coe, if_neg (not_lt.mpr hr.le), if_neg hr.ne']
  · have hc : Ideal.cmp .ogt deg 0 = 0#1 := by
      show BitVec.ofBool (decide ((0 : EReal) < deg)) = 0#1
      rw [decide_eq_false h]; rfl
    rw [hc, select_zero]
    exact ⟨0, le_rfl, by simp⟩

/-- A nonnegative real factor distributes over any finite sum of extended reals, finite or not. -/
theorem coe_mul_sum_of_nonneg {ι : Type} (s : Finset ι) (r : ℝ) (hr : 0 ≤ r) (a : ι → EReal) :
    (r : EReal) * ∑ p ∈ s, a p = ∑ p ∈ s, (r : EReal) * a p := by
  classical
  induction s using Finset.induction_on with
  | empty => simp
  | insert p s hp ih =>
    rw [Finset.sum_insert hp, Finset.sum_insert hp,
      EReal.left_distrib_of_nonneg_of_ne_top (EReal.coe_nonneg.mpr hr) (EReal.coe_ne_top r), ih]

/-- The source index word is the same in the column the degree-factor gather reads and in the column the row gather
    reads: both are the edge's source, wrapped by the node count when negative. -/
theorem src_word_eq (x1 : Edges) (e : Fin 3300000) :
    val_main_v20 (F := Ideal) x1 (ix2 e (0 : Fin 1)) = val_main_v44 (F := Ideal) x1 (ix2 e (0 : Fin 1)) := by
  rw [val_main_v20_apply, val_main_v44_apply, val_main_v19_apply, val_main_v43_apply, val_main_v16_apply,
    val_main_v40_apply, val_main_v18_apply, val_main_v42_apply, val_main_v15_apply, val_main_v39_apply,
    val_main_v17_apply, val_main_v41_apply, val_main_c_apply, val_main_c_6_apply, val_main_c_3_apply,
    val_main_c_7_apply] <;> rfl

/-- At an edge whose destination word, read signed, is the node `n` (so it is not negative), the wrapped destination
    index the second degree-factor gather reads is the destination word itself. -/
theorem dst_word_eq (x1 : Edges) (e : Fin 3300000) (n : Fin 100000)
    (h : (val_main_v50 (F := Ideal) x1 (ix2 e (0 : Fin 1))).toInt = (n.val : Int)) :
    val_main_v27 (F := Ideal) x1 (ix2 e (0 : Fin 1)) = val_main_v50 (F := Ideal) x1 (ix2 e (0 : Fin 1)) := by
  have hi27 : idx_main_v27 (ix2 e (0 : Fin 1)) = ix1 e := by
    funext a; match a with | ⟨0, _⟩ => rfl
  have hi50 : idx_main_v50 (ix2 e (0 : Fin 1)) = ix1 e := by
    funext a; match a with | ⟨0, _⟩ => rfl
  rw [val_main_v50_apply, hi50] at h ⊢
  rw [val_main_v27_apply, hi27, val_main_v26_apply, val_main_v23_apply, val_main_v22_apply, val_main_c_4_apply]
  generalize val_main_v6 (F := Ideal) x1 (ix1 e) = q at h ⊢
  have hslt : IntOp.cmpi .slt q 0#32 = 0#1 := by
    show BitVec.ofBool (q.slt 0#32) = 0#1
    rw [BitVec.slt_eq_decide, BitVec.toInt_zero, h, decide_eq_false (by omega)]
    rfl
  rw [hslt, select_zero]

/-- A function of the clamped row number depends on the index word only through the word. -/
theorem clamp_congr (f : Fin 100000 → EReal) {a b : BitVec 32} (h : a = b) :
    f ⟨min a.toInt.toNat (100000 - 1), by omega⟩ = f ⟨min b.toInt.toNat (100000 - 1), by omega⟩ := by
  subst h; rfl

/-- The first degree-factor gather reads the factor of the edge's source node: the same clamped row the row gather
    reads. -/
theorem v21_eq (x1 : Edges) (e : Fin 3300000) :
    val_main_v21 (F := Ideal) x1 (ix1 e)
      = dinvC x1 ⟨min (val_main_v44 (F := Ideal) x1 (ix2 e (0 : Fin 1))).toInt.toNat (100000 - 1), by omega⟩ := by
  unfold val_main_v21 dinvC
  refine (Cert.Lib.takeGather_apply' (by omega) gather_S100000_S3300000x1_S3300000_n_0_n_n_0_1_1 rfl rfl rfl rfl rfl rfl rfl
    (val_main_v14 (F := Ideal) x1) (val_main_v20 (F := Ideal) x1) e).trans ?_
  exact clamp_congr (fun k => val_main_v14 (F := Ideal) x1 (ix1 k)) (src_word_eq x1 e)

/-- At an edge whose destination word, read signed, is the node `n`, the second degree-factor gather reads the factor
    of `n`: the wrapped index is the word itself and the clamp into `[0, N − 1]` leaves `n` alone. -/
theorem v28_eq (x1 : Edges) (e : Fin 3300000) (n : Fin 100000)
    (h : (val_main_v50 (F := Ideal) x1 (ix2 e (0 : Fin 1))).toInt = (n.val : Int)) :
    val_main_v28 (F := Ideal) x1 (ix1 e) = dinvC x1 n := by
  unfold val_main_v28 dinvC
  refine (Cert.Lib.takeGather_apply' (by omega) gather_S100000_S3300000x1_S3300000_n_0_n_n_0_1_1 rfl rfl rfl rfl rfl rfl rfl
    (val_main_v14 (F := Ideal) x1) (val_main_v27 (F := Ideal) x1) e).trans ?_
  refine (clamp_congr (fun k => val_main_v14 (F := Ideal) x1 (ix1 k)) (dst_word_eq x1 e n h)).trans ?_
  refine congrArg (fun k => val_main_v14 (F := Ideal) x1 (ix1 k)) (Fin.ext ?_)
  show min (val_main_v50 (F := Ideal) x1 (ix2 e (0 : Fin 1))).toInt.toNat (100000 - 1) = n.val
  rw [h]
  have := n.isLt
  omega

/-- The edge weight at `(e, c)` is the product of the two degree-factor gathers at `e`. -/
theorem v47_eq (x1 : Edges) (e : Fin 3300000) (c : Fin 64) :
    val_main_v47 (F := Ideal) x1 (ix2 e c)
      = val_main_v21 (F := Ideal) x1 (ix1 e) * val_main_v28 (F := Ideal) x1 (ix1 e) := by
  have hi : idx_main_v46 (idx_main_v47 (ix2 e c)) = ix1 e := by
    funext a; match a with | ⟨0, _⟩ => rfl
  rw [val_main_v47_apply, val_main_v46_apply, hi, val_main_v29_apply]
  rfl

/-- Scaling an accumulating scatter at one element: if the operand is zero there on both sides, and every update
    that lands on the element is scaled by the nonnegative real `r`, then so is the element. -/
theorem hostScatterAdd_scale {s si su : Shape} {w : Nat} (d : ScatterDims s si su) (idx : IVec si w)
    (x x' : s.Idx → EReal) (upd upd' : su.Idx → EReal) (i : s.Idx) (r : ℝ) (hr : 0 ≤ r)
    (hx : x i = 0) (hx' : x' i = 0)
    (h : ∀ p, d.resultIdx? p idx = some i → (r : EReal) * upd p = upd' p) :
    (r : EReal) * Ideal.hostScatterAdd d x idx upd i = Ideal.hostScatterAdd d x' idx upd' i := by
  unfold Ideal.hostScatterAdd
  rw [hx, hx', zero_add, zero_add, coe_mul_sum_of_nonneg _ r hr]
  exact Finset.sum_congr rfl fun p hp => h p (Finset.mem_filter.mp hp).2

/-- The plain aggregation is the exact accumulating scatter of the gathered rows. -/
theorem aggK_eq (x1 : Edges) (u : NodeMat) :
    aggK x1 u = Ideal.hostScatterAdd scatter_S100000x64_S3300000x1_S3300000x64_1_0_0_1 (val_main_v49 (F := Ideal))
      (val_main_v50 (F := Ideal) x1) (Host.gather gather_S100000x64_S3300000x1_S3300000x64_1_0_n_n_0_1_164 u (val_main_v44 (F := Ideal) x1)) := rfl

/-- The weighted aggregation is the exact accumulating scatter of the gathered rows times the edge weights. -/
theorem aggN_eq (x1 : Edges) (t : NodeMat) :
    aggN x1 t = Ideal.hostScatterAdd scatter_S100000x64_S3300000x1_S3300000x64_1_0_0_1 (val_main_v49 (F := Ideal))
      (val_main_v50 (F := Ideal) x1)
      (mulf (Host.gather gather_S100000x64_S3300000x1_S3300000x64_1_0_n_n_0_1_164 t (val_main_v44 (F := Ideal) x1)) (val_main_v47 (F := Ideal) x1)) := rfl

/-- THE LAYER LAW: the degree factor of the destination node, taken out of the weighted edge sum. -/
theorem layer_eq (x1 : Edges) (t : NodeMat) (n : Fin 100000) (j : Fin 64) :
    dinvC x1 n * aggK x1 (mat2 fun n' j' => at2 t n' j' * dinvC x1 n') (ix2 n j) = aggN x1 t (ix2 n j) := by
  obtain ⟨r, hr, hd⟩ := dinvC_nonneg_real x1 n
  have hz : val_main_v49 (F := Ideal) (ix2 n j) = (0 : EReal) := by
    rw [val_main_v49_apply, val_main_cst_8_apply]
    exact Ideal.ofBits_zero_f32
  rw [aggK_eq, aggN_eq, hd]
  refine hostScatterAdd_scale _ _ _ _ _ _ _ r hr hz hz (fun p hp' => ?_)
  rw [← hd]
  obtain ⟨e, c, rfl⟩ : ∃ (e : Fin 3300000) (c : Fin 64), p = ix2 e c := ⟨p 0, p 1, eq_ix2 p⟩
  have hdst : (val_main_v50 (F := Ideal) x1 (ix2 e (0 : Fin 1))).toInt = (n.val : Int) :=
    (Cert.Lib.rowScatter_resultIdx_some' scatter_S100000x64_S3300000x1_S3300000x64_1_0_0_1 rfl rfl rfl rfl
      (val_main_v50 (F := Ideal) x1) e c (ix2 n j) hp').1
  rw [mulf_apply,
    Cert.Lib.rowGather_apply' (by omega) gather_S100000x64_S3300000x1_S3300000x64_1_0_n_n_0_1_164 rfl rfl rfl rfl rfl rfl rfl,
    Cert.Lib.rowGather_apply' (by omega) gather_S100000x64_S3300000x1_S3300000x64_1_0_n_n_0_1_164 rfl rfl rfl rfl rfl rfl rfl,
    mat2_apply, v47_eq, v21_eq, v28_eq x1 e n hdst]
  unfold at2
  rw [mul_comm (dinvC x1 n), mul_assoc]

end Cert.Layer

end
-- ==== Proof.RefEq.lean ====
/-
  The two arrangements of the network compute the same function of the arguments.

  The reference program weights each edge by the product of the degree factors of its two ends before adding the
  gathered rows at the edge's destination. The kernel program moves the two factors out of the edge sum: a stage
  scales its rows by the degree factor BEFORE the plain aggregation, and the next stage scales the aggregate AFTER it
  (the layer identity `d n · aggK (t · d) = aggN t`, proved elsewhere).

  With `scaled t = t · d` (each row times its degree factor):

  * the kernel's first stage is `scaled` of the reference's first product;
  * a middle stage maps `scaled t` to `scaled t'`, where `t'` is the reference's next product
    `max (aggN t + b) 0 · wᵀ`                                            (`uNext_step`, used twice);
  * the last stage maps `scaled t` to the reference's `max (aggN t + b) 0`  (`hLast_step`).

  So the node features after the three layers agree (`hK_eq`), and the pooled head over them is the reference's
  result (`kOut_eq_ref`).
-/
import proofs.«113083_j47880295415877_2_alg».proof.Proof.RefRead
import proofs.«113083_j47880295415877_2_alg».proof.Proof.Layer

noncomputable section

namespace Cert.RefEq

open Cert.KSpec Cert.Spec Cert.ReferenceIdeal Cert.ReferenceIdeal.ReadP Idealize.ShloMosaic Idealize.ShloMosaic.ValueIdx Cert.RefRead

/-- A node matrix with each row scaled by the row's degree factor. -/
def scaled (x1 : Edges) (t : NodeMat) : NodeMat := mat2 fun n j => at2 t n j * dinvC x1 n

/-- Moving the degree factor out of the edge sum: the plain aggregate of the scaled rows, scaled again and
    activated, is the activated weighted aggregate. -/
theorem act_step (x1 : Edges) (t : NodeMat) (b : Fin 64 → EReal) :
    actC (at2 (aggK x1 (scaled x1 t))) (dinvC x1) b = actR (at2 (aggN x1 t)) b := by
  funext n j
  show max (dinvC x1 n * aggK x1 (mat2 fun n' j' => at2 t n' j' * dinvC x1 n') (ix2 n j) + b j) zeroW
    = max (aggN x1 t (ix2 n j) + b j) zeroW
  rw [Cert.Layer.layer_eq x1 t n j]

/-- A middle stage of the kernel's arrangement over scaled rows is the scaled next stage of the reference's. -/
theorem uNext_step (x1 : Edges) (t t' : NodeMat) (b : Fin 64 → EReal) (w : Fin 64 → Fin 64 → EReal)
    (h : at2 t' = linC (actR (at2 (aggN x1 t)) b) w) : uNext x1 (scaled x1 t) b w = scaled x1 t' := by
  show mat2 (fun n j => linC (actC (at2 (aggK x1 (scaled x1 t))) (dinvC x1) b) w n j * dinvC x1 n)
    = mat2 (fun n j => at2 t' n j * dinvC x1 n)
  rw [act_step, h]

/-- The last stage of the kernel's arrangement over scaled rows is the reference's last stage. -/
theorem hLast_step (x1 : Edges) (t t' : NodeMat) (b : Fin 64 → EReal)
    (h : at2 t' = actR (at2 (aggN x1 t)) b) : hLast x1 (scaled x1 t) b = t' := by
  show mat2 (actC (at2 (aggK x1 (scaled x1 t))) (dinvC x1) b) = t'
  rw [act_step, ← h, mat2_at2]

variable (x0 : FVec Ideal S100000x4 .f32) (x1 : Edges) (x2 : IVec S100000 32) (x3 : FVec Ideal S64x4 .f32)
  (x4 : FVec Ideal S64 .f32) (x5 : FVec Ideal S3x64x64 .f32) (x6 : FVec Ideal S3x64 .f32) (x7 : FVec Ideal S64x64 .f32)
  (x8 : FVec Ideal S64 .f32) (x9 : FVec Ideal S3x64 .f32) (x10 : FVec Ideal S3 .f32)

/-- The first stage is the reference's first product with its rows scaled. -/
theorem u0_eq : u0 x0 x1 x3 x4 x5 = scaled x1 (val_main_v38 (F := Ideal) x0 x3 x4 x5) := by
  show mat2 (fun n j => linC (embC (at2 x0) (at2 x3) (vec x4)) (w5C x5 0) n j * dinvC x1 n)
    = mat2 (fun n j => at2 (val_main_v38 (F := Ideal) x0 x3 x4 x5) n j * dinvC x1 n)
  rw [v38_eq]

/-- The node features after the three layers agree in the two arrangements. -/
theorem hK_eq : hK x0 x1 x3 x4 x5 x6 = val_main_v103 (F := Ideal) x0 x1 x3 x4 x5 x6 := by
  have h1 : at2 (val_main_v61 (F := Ideal) x0 x1 x3 x4 x5 x6)
      = linC (actR (at2 (aggN x1 (val_main_v38 (F := Ideal) x0 x3 x4 x5))) (b6C x6 0)) (w5C x5 1) := by
    rw [v61_eq, v57_eq, v51_eq]
  have h2 : at2 (val_main_v84 (F := Ideal) x0 x1 x3 x4 x5 x6)
      = linC (actR (at2 (aggN x1 (val_main_v61 (F := Ideal) x0 x1 x3 x4 x5 x6))) (b6C x6 1)) (w5C x5 2) := by
    rw [v84_eq, v80_eq, v74_eq]
  have h3 : at2 (val_main_v103 (F := Ideal) x0 x1 x3 x4 x5 x6)
      = actR (at2 (aggN x1 (val_main_v84 (F := Ideal) x0 x1 x3 x4 x5 x6))) (b6C x6 2) := by
    rw [v103_eq, v97_eq]
  unfold hK
  rw [u0_eq, uNext_step x1 _ _ _ _ h1, uNext_step x1 _ _ _ _ h2, hLast_step x1 _ _ _ h3]

/-- The result agrees in the two arrangements. -/
theorem kOut_eq_ref : kOut x0 x1 x2 x3 x4 x5 x6 x7 x8 x9 x10 = val_main_v126 (F := Ideal) x0 x1 x2 x3 x4 x5 x6 x7 x8 x9 x10 := by
  unfold kOut
  rw [hK_eq, ← v106_eq, ← v126_eq]

end Cert.RefEq

end
-- ==== Proof.lean ====
/-
  A graph convolution network — node embedding, three normalized convolution layers, mean pooling over graphs, a
  two-layer head — as a program of five kernel regions and host gather / scatter-add operations, against the plain
  array program that states it.

  The two programs differ in ONE arrangement. The plain program weights every edge `s → t` by `d_s · d_t` (`d` the
  degree factor `deg⁻¹ᐟ²`, zero where the degree is zero) inside the edge sum:
      h'[t] = max (Σ_{s → t} (h·Wᵀ)[s] · (d_s · d_t) + b) 0.
  The kernel program scales the rows by `d_s` BEFORE the gather and the aggregate by `d_t` AFTER the scatter-add:
      u = (h·Wᵀ) · d,   h'[t] = max (d_t · Σ_{s → t} u[s] + b) 0.
  On the extended reals the two agree because `d_t` is a nonnegative REAL number (never an infinity), and a nonnegative
  real factor distributes over any sum of extended reals; products commute and associate. No finiteness of the inputs
  is used. Everything else (the matrix products with the low-precision casts, which are the identity on the extended
  reals; the biases; the pooled mean; the head) is the same arithmetic in both programs, coordinate by coordinate.

  The kernel program's result is read off its run region by region (each region's output array is one whole-array
  function of the arrays it finds; the host operations between the regions are read at the buffers they write), the
  plain program's off its run's composed term, and the two are the same function of the argument arrays (`kOut`).
-/
import proofs.«113083_j47880295415877_2_alg».proof.Defs
import proofs.«113083_j47880295415877_2_alg».proof.Proof.Gen.Kernel
import proofs.«113083_j47880295415877_2_alg».proof.Proof.Gen.Kernel.Skeleton
import proofs.«113083_j47880295415877_2_alg».proof.Proof.Gen.Kernel.Launch
import proofs.«113083_j47880295415877_2_alg».proof.Proof.Gen.Kernel.Points
import proofs.«113083_j47880295415877_2_alg».proof.Proof.Gen.Kernel.Frame
import proofs.«113083_j47880295415877_2_alg».proof.Proof.Gen.KernelIdeal
import proofs.«113083_j47880295415877_2_alg».proof.Proof.Gen.KernelIdeal.Skeleton
import proofs.«113083_j47880295415877_2_alg».proof.Proof.Gen.KernelIdeal.Launch
import proofs.«113083_j47880295415877_2_alg».proof.Proof.Gen.KernelIdeal.Points
import proofs.«113083_j47880295415877_2_alg».proof.Proof.Gen.KernelIdeal.Frame
import proofs.«113083_j47880295415877_2_alg».proof.Proof.Gen.ReferenceIdeal
import proofs.«113083_j47880295415877_2_alg».proof.Proof.Gen.Pre_finite_inputs
import proofs.«113083_j47880295415877_2_alg».proof.Proof.RunP
import proofs.«113083_j47880295415877_2_alg».proof.Proof.ReadP
import proofs.«113083_j47880295415877_2_alg».proof.Proof.KRun
import proofs.«113083_j47880295415877_2_alg».proof.Proof.KFold4
import proofs.«113083_j47880295415877_2_alg».proof.Proof.RefEq
import Idealize.ShloMosaic.Adequacy
import Idealize.ShloMosaic.Init

noncomputable section

namespace Cert.Proof

open Idealize.ShloMosaic Idealize.SL.Sem

/-- The kernel program as printed runs and leaves its arguments unchanged. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- So does the plain program: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- The idealization rewrote no operation. -/
theorem preserves : Cert.preserves_Kernel_KernelIdeal := trivial

/-- Both programs end at `kOut` of the (agreeing) argument arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KSpec.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KFold.out4 m ρ c), (h c).2⟩) (Cert.KRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v126_eq]
    obtain ⟨a0, a1, a2, a3, a4, a5, a6, a7, a8, a9, a10⟩ := hagree c
    rw [a0, a1, a2, a3, a4, a5, a6, a7, a8, a9, a10]
    exact (Cert.RefEq.kOut_eq_ref _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
